-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x4096, .f32⟩
  | .local _ .vmem, ⟨7, _⟩ => ⟨S1x1024, .f32⟩
  | .local _ .vmem, ⟨8, _⟩ => ⟨S1x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v40 : BitVec 32 := Scalar.muli arg1 c1024_i32
  v40
def k0_off1 (i : grid0.Coords) : Fin 2 → Nat :=
  let c0_18 : Index := 0#32
  let arg1 : BitVec 32 := BitVec.ofNat 32 (i 1).val
  let c1024_i32 : BitVec 32 := 1024#32
  let v40 : BitVec 32 := Scalar.muli arg1 c1024_i32
  let v41 : BitVec 32 := v40
  let v42 : Index := Scalar.indexCast v41
  ![0, v42.toNat]
def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_13 : BitVec 32 := 0#32
  let v32 : BitVec 1 := Scalar.cmpi .ne v31 c0_i32_13
  v32

def k0_cond4 (i : grid0.Coords) : BitVec 1 :=
  let arg0 : BitVec 32 := BitVec.ofNat 32 (i 0).val
  let c3_i32_20 : BitVec 32 := 3#32
  let v49 : BitVec 1 := Scalar.cmpi .eq arg0 c3_i32_20
  let arg1 : BitVec 32 := BitVec.ofNat 32 (i 1).val
  let c3_i32_21 : BitVec 32 := 3#32
  let v50 : BitVec 1 := Scalar.cmpi .eq arg1 c3_i32_21
  let v51 : BitVec 1 := Scalar.andi v49 v50
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  bitsLt_bf16_f32 : FTy.bits .bf16 < FTy.bits .f32
  transposes_S1024x1024_p1_0_S1024x1024 : S1024x1024.Transposes [1, 0] S1024x1024
  shapeCasts_S1024_S1024x1 : S1024.ShapeCasts S1024x1
  broadcasts_S1024x1_S1024x1024 : S1024x1.Broadcasts S1024x1024
  shapeCasts_S1024_S1x1024 : S1024.ShapeCasts S1x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S1024x1024_S1024_2 : S1024x1024.Reduces [0] S1024
  reducesTo_S1x4096_S_d0_1 : S1x4096.ReducesTo [0, 1] S_
  h_S_ : 0 < S_.numel
  dot_S1024x1024_S1024x1024_S1024x1024_1_0_0_1_n_n_wf : DotDims.WF S1024x1024 S1024x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x4096, .f32⟩
  | .hbm, ⟨9, _⟩ => ⟨S4096x1, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  reducesTo_S4096_S_d0 : S4096.ReducesTo [0] S_
  reducesTo_S4096x4096_S4096_d0 : S4096x4096.ReducesTo [0] S4096
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.Spec.lean ====
/-
  The specification. Two sets of 4096 points with 1024 coordinates each; the scaled squared distance
  `dist n m = (‖xₙ‖² − 2 xₙ·yₘ + ‖yₘ‖²) · 2⁻¹⁰`; for every point the distance to the nearest point of the
  other set; the two means of those, averaged. All of it over the extended reals.

  Then the one piece of order theory the proof needs. The nearest distance of a point is a minimum over 4096
  candidates; taken instead block by block (four blocks of 1024 candidates, the partial minima folded into
  a running minimum that starts at +∞) it is the same number, because `c ≤` a minimum says `c ≤` every
  candidate, whatever the grouping. `rowAcc` and `colAcc` are the two running minima as a sweep over
  16 pairs of blocks (first-set block `n / 4`, second-set block `n % 4`) leaves them after pair `n`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A set of 4096 points with 1024 coordinates each. -/
abbrev Pts := (⟨2, ![4096, 1024]⟩ : Shape).Idx → EReal

/-- `‖xₙ‖²`. -/
def sqNorm (x : Pts) (n : Fin 4096) : EReal := ∑ d : Fin 1024, x (ix2 n d) * x (ix2 n d)

/-- `xₙ · yₘ`. -/
def dot (x y : Pts) (n m : Fin 4096) : EReal := ∑ d : Fin 1024, x (ix2 n d) * y (ix2 m d)

/-- `(‖xₙ‖² − 2 xₙ·yₘ + ‖yₘ‖²) · 2⁻¹⁰`: the mean over the coordinates of the squared differences, expanded. -/
def dist (x y : Pts) (n m : Fin 4096) : EReal :=
  (sqNorm x n - Ideal.ofBits .f32 0x40000000#32 * dot x y n m + sqNorm y m) * Ideal.ofBits .f32 0x3A800000#32

/-- For point `n` of the first set: the distance to the nearest point of the second. -/
def nearestOfSecond (x y : Pts) (n : Fin 4096) : EReal :=
  (Finset.univ : Finset (Fin 4096)).fold min ⊤ (fun m => dist x y n m)

/-- For point `m` of the second set: the distance to the nearest point of the first. -/
def nearestOfFirst (x y : Pts) (m : Fin 4096) : EReal :=
  (Finset.univ : Finset (Fin 4096)).fold min ⊤ (fun n => dist x y n m)

/-- The mean of 4096 numbers: their sum (from zero) divided by 4096. -/
def mean (f : Fin 4096 → EReal) : EReal :=
  Ideal.div (Ideal.ofBits .f32 0x00000000#32 + ∑ n : Fin 4096, f n) (Ideal.ofBits .f32 0x45800000#32)

/-- The symmetric nearest-neighbour loss: the two means, averaged. -/
def loss (x y : Pts) : EReal :=
  (mean (nearestOfSecond x y) + mean (nearestOfFirst x y)) * Ideal.ofBits .f32 0x3F000000#32

/-! ## The constants -/

theorem zero_f32 : Ideal.ofBits .f32 0x00000000#32 = 0 := Ideal.ofBits_zero_f32

theorem inf_f32 : Ideal.ofBits .f32 0x7F800000#32 = ⊤ := by simp [Ideal.ofBits, Ideal.ieee]

theorem n1024_f32 : Ideal.ofBits .f32 0x44800000#32 = ((1024 : ℝ) : EReal) := by
  simp [Ideal.ofBits, Ideal.ieee, -EReal.coe_mul]; norm_num

theorem inv1024_f32 : Ideal.ofBits .f32 0x3A800000#32 = ((1 / 1024 : ℝ) : EReal) := by
  simp [Ideal.ofBits, Ideal.ieee, -EReal.coe_mul]; norm_num

/-- Dividing by 1024 is multiplying by 2⁻¹⁰, on every extended real. -/
theorem div_1024 (z : EReal) :
    Ideal.div z (Ideal.ofBits .f32 0x44800000#32) = z * Ideal.ofBits .f32 0x3A800000#32 := by
  rw [n1024_f32, inv1024_f32]
  exact Ideal.div_coe (by norm_num) z

/-! ## Blocks of 1024 points -/

/-- Point `p` of block `i` (four blocks, `i < 4`). -/
def blk (i : ℕ) (p : Fin 1024) : Fin 4096 :=
  if h : i < 4 then ⟨1024 * i + p.val, by have := p.isLt; omega⟩ else ⟨0, by decide⟩

theorem blk_val {i : ℕ} (h : i < 4) (p : Fin 1024) : (blk i p).val = 1024 * i + p.val := by
  unfold blk; rw [dif_pos h]

/-- Every point is a point of one of the four blocks. -/
theorem exists_blk (n : Fin 4096) : ∃ i, i < 4 ∧ ∃ p : Fin 1024, n = blk i p := by
  have hn := n.isLt
  refine ⟨n.val / 1024, by omega, ⟨n.val % 1024, Nat.mod_lt _ (by decide)⟩, Fin.ext ?_⟩
  rw [blk_val (by omega)]
  show n.val = 1024 * (n.val / 1024) + n.val % 1024
  omega

/-! ## The running minima of the sweep -/

section Sweep

variable (D : Fin 4096 → Fin 4096 → EReal)

/-- For point `p` of first-set block `i`: the least of `D` over second-set block `j`. -/
def rowPart (i j : ℕ) (p : Fin 1024) : EReal :=
  (Finset.univ : Finset (Fin 1024)).fold min ⊤ (fun q => D (blk i p) (blk j q))

/-- For point `m` of the second set: the least of `D` over first-set block `i`. -/
def colPart (i : ℕ) (m : Fin 4096) : EReal :=
  (Finset.univ : Finset (Fin 1024)).fold min ⊤ (fun p => D (blk i p) m)

/-- The running minimum per point of the current first-set block after pair `n`: restarted from +∞ whenever
    the second-set block index `n % 4` returns to 0. -/
def rowAcc : ℕ → Fin 1024 → EReal
  | 0, p => min ⊤ (rowPart D 0 0 p)
  | n + 1, p => min (if (n + 1) % 4 = 0 then ⊤ else rowAcc n p) (rowPart D ((n + 1) / 4) ((n + 1) % 4) p)

/-- The running minimum per point of the second set after pair `n`: +∞ everywhere at the start, then only
    the entries of the current second-set block `n % 4` are lowered. -/
def colAcc : ℕ → Fin 4096 → EReal
  | 0, m => if m.val / 1024 = 0 then min ⊤ (colPart D 0 m) else ⊤
  | n + 1, m => if m.val / 1024 = (n + 1) % 4 then min (colAcc n m) (colPart D ((n + 1) / 4) m) else colAcc n m

/-- What lies below the row minimum after pair `n`: what lies below every candidate of the second-set blocks
    `0 … n % 4`. -/
theorem le_rowAcc_iff (c : EReal) (p : Fin 1024) :
    ∀ n, c ≤ rowAcc D n p ↔ ∀ j, j ≤ n % 4 → ∀ q, c ≤ D (blk (n / 4) p) (blk j q)
  | 0 => by
    simp only [rowAcc, rowPart, le_min_iff, le_top, true_and, Finset.le_fold_min, Finset.mem_univ, forall_true_left]
    constructor
    · intro h j hj q
      obtain rfl : j = 0 := by omega
      exact h q
    · intro h q
      exact h 0 (le_refl _) q
  | n + 1 => by
    rw [rowAcc, le_min_iff]
    by_cases h0 : (n + 1) % 4 = 0
    · rw [if_pos h0, h0]
      simp only [rowPart, le_top, true_and, Finset.le_fold_min, Finset.mem_univ, forall_true_left]
      constructor
      · intro h j hj q
        obtain rfl : j = 0 := by omega
        exact h q
      · intro h q
        exact h 0 (le_refl _) q
    · rw [if_neg h0, le_rowAcc_iff c p n]
      have e1 : (n + 1) / 4 = n / 4 := by omega
      have e2 : (n + 1) % 4 = n % 4 + 1 := by omega
      rw [e1, e2]
      simp only [rowPart, le_top, true_and, Finset.le_fold_min, Finset.mem_univ, forall_true_left]
      constructor
      · rintro ⟨h1, h2⟩ j hj q
        rcases Nat.lt_or_ge j (n % 4 + 1) with hlt | hge
        · exact h1 j (by omega) q
        · obtain rfl : j = n % 4 + 1 := by omega
          exact h2 q
      · intro h
        exact ⟨fun j hj q => h j (by omega) q, fun q => h _ (le_refl _) q⟩

/-- After the last second-set block the row minimum is the minimum over the whole second set. -/
theorem rowAcc_last (i : ℕ) (hi : i < 4) (p : Fin 1024) :
    rowAcc D (4 * i + 3) p = (Finset.univ : Finset (Fin 4096)).fold min ⊤ (fun m => D (blk i p) m) := by
  refine eq_of_forall_le_iff fun c => ?_
  rw [le_rowAcc_iff, Finset.le_fold_min]
  have e1 : (4 * i + 3) / 4 = i := by omega
  have e2 : (4 * i + 3) % 4 = 3 := by omega
  rw [e1, e2]
  simp only [le_top, true_and, Finset.mem_univ, forall_true_left]
  constructor
  · intro h m
    obtain ⟨j, hj, q, rfl⟩ := exists_blk m
    exact h j (by omega) q
  · intro h j _ q
    exact h _

/-- What lies below the column minimum of `m` after pair `n`: what lies below every candidate of the
    first-set blocks met so far together with `m`'s own block. -/
theorem le_colAcc_iff (c : EReal) (m : Fin 4096) :
    ∀ n, c ≤ colAcc D n m ↔ ∀ k, k ≤ n → k % 4 = m.val / 1024 → ∀ p, c ≤ D (blk (k / 4) p) m
  | 0 => by
    rw [colAcc]
    by_cases h : m.val / 1024 = 0
    · rw [if_pos h]
      simp only [colPart, le_min_iff, le_top, true_and, Finset.le_fold_min, Finset.mem_univ, forall_true_left]
      constructor
      · intro hh k hk _ p
        obtain rfl : k = 0 := by omega
        exact hh p
      · intro hh p
        exact hh 0 (le_refl _) (by omega) p
    · rw [if_neg h]
      simp only [le_top, true_iff]
      intro k hk hk4
      obtain rfl : k = 0 := by omega
      exact absurd hk4.symm h
  | n + 1 => by
    rw [colAcc]
    by_cases h : m.val / 1024 = (n + 1) % 4
    · rw [if_pos h, le_min_iff, le_colAcc_iff c m n]
      simp only [colPart, le_top, true_and, Finset.le_fold_min, Finset.mem_univ, forall_true_left]
      constructor
      · rintro ⟨h1, h2⟩ k hk hk4 p
        rcases Nat.lt_or_ge k (n + 1) with hlt | hge
        · exact h1 k (by omega) hk4 p
        · obtain rfl : k = n + 1 := by omega
          exact h2 p
      · intro hh
        exact ⟨fun k hk hk4 p => hh k (by omega) hk4 p, fun p => hh (n + 1) (le_refl _) h.symm p⟩
    · rw [if_neg h, le_colAcc_iff c m n]
      constructor
      · intro h1 k hk hk4 p
        rcases Nat.lt_or_ge k (n + 1) with hlt | hge
        · exact h1 k (by omega) hk4 p
        · obtain rfl : k = n + 1 := by omega
          exact absurd hk4.symm h
      · intro hh k hk hk4 p
        exact hh k (by omega) hk4 p

/-- After the last pair the column minimum is the minimum over the whole first set. -/
theorem colAcc_last (m : Fin 4096) :
    colAcc D 15 m = (Finset.univ : Finset (Fin 4096)).fold min ⊤ (fun n => D n m) := by
  have hm := m.isLt
  refine eq_of_forall_le_iff fun c => ?_
  rw [le_colAcc_iff, Finset.le_fold_min]
  simp only [le_top, true_and, Finset.mem_univ, forall_true_left]
  constructor
  · intro h n
    obtain ⟨i, hi, p, rfl⟩ := exists_blk n
    have := h (4 * i + m.val / 1024) (by omega) (by omega) p
    rwa [show (4 * i + m.val / 1024) / 4 = i by omega] at this
  · intro h k _ _ p
    exact h _

end Sweep

end Cert.Spec

end
-- ==== Proof.RefValue.lean ====
/-
  The reference program's value. Read one operation at a time at the exact extended-real instance, the
  reference computes, for every pair of points, the scaled squared distance of the specification; its two
  minimum-reduces are the nearest distances; its two sums divided by 4096 are the two means; their half-sum
  is the loss.
-/
import proofs.«151360_j65524021067918_1_alg».proof.Proof.Gen.ReferenceIdeal.Read
import proofs.«151360_j65524021067918_1_alg».proof.Proof.Spec
import Idealize.ShloMosaic.PureOps.Reduce

noncomputable section

namespace Cert.RefValue

open Idealize.ShloMosaic Idealize.ShloMosaic.ValueIdx Cert.ReferenceIdeal Cert.ReferenceIdeal.Gen Cert.ReferenceIdeal.Read

/-- The entry (n, m) of the reference's distance matrix is the specification's scaled squared distance. -/
theorem dist_eq (x y : Cert.Spec.Pts) (n m : Fin 4096) :
    val_main_v14 (F := Ideal) x y (ix2 n m) = Cert.Spec.dist x y n m := by
  have e1 : ∀ k : Fin 1024, idx_main_v1 (idx_main_v5 (idx_main_v8 (ix2 n m))) k = ix2 n k := fun k =>
    funext fun a => Fin.ext (by match a with | ⟨0, _⟩ => rfl | ⟨1, _⟩ => rfl)
  have e3 : ∀ k : Fin 1024, idx_main_v3 (idx_main_v10 (idx_main_v11 (ix2 n m))) k = ix2 m k := fun k =>
    funext fun a => Fin.ext (by match a with | ⟨0, _⟩ => rfl | ⟨1, _⟩ => rfl)
  have el : ∀ k : Fin 1024, lidx_main_v4 (ix2 n m) k = ix2 n k := fun k =>
    funext fun a => Fin.ext (by match a with | ⟨0, _⟩ => rfl | ⟨1, _⟩ => rfl)
  have er : ∀ k : Fin 1024, ridx_main_v4 (ix2 n m) k = ix2 m k := fun k =>
    funext fun a => Fin.ext (by match a with | ⟨0, _⟩ => rfl | ⟨1, _⟩ => rfl)
  rw [val_main_v14_apply, val_main_v12_apply, val_main_v9_apply, val_main_v8_apply, val_main_v5_apply,
    val_main_v1_apply, val_main_v7_apply, val_main_v6_apply, val_main_v4_apply, val_main_v11_apply,
    val_main_v10_apply, val_main_v3_apply, val_main_v13_apply]
  simp only [e1, e3, el, er, val_main_v0_apply, val_main_v2_apply, val_main_cst_apply, val_main_cst_0_apply,
    val_main_cst_1_apply, val_main_cst_2_apply, Ideal.mulf_def, Ideal.addf_def, Ideal.subf_def,
    Ideal.hostDivf_def, Ideal.ofBits_def, Cert.Spec.zero_f32, zero_add, Cert.Spec.div_1024,
    Cert.Spec.dist, Cert.Spec.sqNorm, Cert.Spec.dot]

/-- A fold with the exact instance's minimum is a fold with `min`. -/
theorem fold_minimumf (b : EReal) (f : Fin 4096 → EReal) :
    (Finset.univ : Finset (Fin 4096)).fold (FloatOps.minimumf (F := Ideal) (φ := .f32)) b f
      = (Finset.univ : Finset (Fin 4096)).fold min b f := rfl

/-- The minimum-reduce over the second axis: for point `n` of the first set, the distance to the nearest point of
    the second. -/
theorem v15_eq (x y : Cert.Spec.Pts) (j : S4096.Idx) :
    val_main_v15 (F := Ideal) x y j = Cert.Spec.nearestOfSecond x y (j 0) := by
  obtain ⟨n, rfl⟩ : ∃ n : Fin 4096, j = ix1 n := ⟨j 0, eq_ix1 j⟩
  have h : S4096x4096.Reduces [1] S4096 := by decide
  have hf : (val_main_v14 (F := Ideal) x y ∘ h.lift (ix1 n)) = fun m : Fin 4096 => Cert.Spec.dist x y n m := by
    refine funext fun (m : Fin 4096) => ?_
    have em : h.lift (ix1 n) m = ix2 n m :=
      funext fun a => Fin.ext (by match a with | ⟨0, _⟩ => rfl | ⟨1, _⟩ => rfl)
    show val_main_v14 (F := Ideal) x y (h.lift (ix1 n) m) = _
    rw [em]
    exact dist_eq x y n m
  unfold val_main_v15
  rw [Host.reduce_eq_fold_single FloatOps.minimumf _ _ reducesTo_S4096x4096_S4096_d1 h h_S_ (ix1 n), hf,
    val_main_cst_3_apply, Ideal.ofBits_def, Cert.Spec.inf_f32]
  exact fold_minimumf _ _

/-- The minimum-reduce over the first axis: for point `m` of the second set, the distance to the nearest point of
    the first. -/
theorem v18_eq (x y : Cert.Spec.Pts) (j : S4096.Idx) :
    val_main_v18 (F := Ideal) x y j = Cert.Spec.nearestOfFirst x y (j 0) := by
  obtain ⟨m, rfl⟩ : ∃ m : Fin 4096, j = ix1 m := ⟨j 0, eq_ix1 j⟩
  have h : S4096x4096.Reduces [0] S4096 := by decide
  have hf : (val_main_v14 (F := Ideal) x y ∘ h.lift (ix1 m)) = fun n : Fin 4096 => Cert.Spec.dist x y n m := by
    refine funext fun (n : Fin 4096) => ?_
    have en : h.lift (ix1 m) n = ix2 n m :=
      funext fun a => Fin.ext (by match a with | ⟨0, _⟩ => rfl | ⟨1, _⟩ => rfl)
    show val_main_v14 (F := Ideal) x y (h.lift (ix1 m) n) = _
    rw [en]
    exact dist_eq x y n m
  unfold val_main_v18
  rw [Host.reduce_eq_fold_single FloatOps.minimumf _ _ reducesTo_S4096x4096_S4096_d0 h h_S_ (ix1 m), hf,
    val_main_cst_6_apply, Ideal.ofBits_def, Cert.Spec.inf_f32]
  exact fold_minimumf _ _

/-- A rank-1 index is its one coordinate. -/
def idxEquiv1 : S4096.Idx ≃ Fin 4096 where
  toFun j := j 0
  invFun n := ix1 n
  left_inv j := (eq_ix1 j).symm
  right_inv _ := rfl

/-- A sum over rank-1 indices is the sum over the coordinate. -/
theorem sum_idx1 (g : S4096.Idx → EReal) (f : Fin 4096 → EReal) (hgf : ∀ j, g j = f (j 0)) :
    ∑ j : S4096.Idx, g j = ∑ n : Fin 4096, f n :=
  Fintype.sum_equiv idxEquiv1 g f hgf

/-- The reference's result is the specification's loss. -/
theorem ref_eq (x y : Cert.Spec.Pts) :
    Cert.ReferenceIdeal.Read.val_main_v22 (F := Ideal) x y = fun _ => Cert.Spec.loss x y := by
  funext i
  rw [val_main_v22_apply, val_main_v21_apply, val_main_v17_apply, val_main_v20_apply, val_main_v16_apply,
    val_main_v19_apply,
    sum_idx1 (val_main_v15 (F := Ideal) x y) (Cert.Spec.nearestOfSecond x y) (v15_eq x y),
    sum_idx1 (val_main_v18 (F := Ideal) x y) (Cert.Spec.nearestOfFirst x y) (v18_eq x y)]
  simp only [val_main_cst_4_apply, val_main_cst_5_apply, val_main_cst_7_apply, val_main_cst_8_apply,
    val_main_cst_9_apply, Ideal.mulf_def, Ideal.addf_def, Ideal.hostDivf_def, Ideal.ofBits_def,
    Cert.Spec.loss, Cert.Spec.mean]

end Cert.RefValue

end
-- ==== Proof.Pieces.lean ====
/-
  What one grid point leaves behind, case by case. The body keeps two running minima in scratch memory that outlives
  the grid points: a row accumulator (one entry per point of the current first-set block) and a column accumulator
  (one entry per point of the whole second set, of which a point touches only the 1024 entries of its second-set
  block). Each of the five control cases — which of the two accumulators is restarted, which result is written — leaves
  in them, and in the results it writes, a value named here over the body's arithmetic (its payloads): a restarted row
  accumulator is `payload5` of +∞, a continued one `payload5` of the previous contents; the column accumulator is the
  previous contents (+∞ at the first point) with the current block replaced by `payload2` of that block; a result
  block is the accumulator it copies. Stated at every float instance.
-/
import proofs.«151360_j65524021067918_1_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One store of a whole 1×4096 buffer leaves what was stored, whatever was there. -/
theorem read_store_all {κ : Kind} {sp : Space} (v : View sig κ sp S1x4096 .f32) (f : v.ty.Contents (Elt F))
    (w : S1x4096.Idx → Elt F .f32) :
    v.read (Elt F) (v.writes (Elt F) f [⟨Rect.unit (s := S1x4096) ![0, 0] S1x4096.size inb_S1x4096_S1x4096_0_0, w⟩]) = w :=
  funext fun y => View.read_writes_cons_unit_of_mem v f inb_S1x4096_S1x4096_0_0 w [] y y rfl fun a => by
    match a with
    | ⟨0, _⟩ => exact (Nat.zero_add _).symm
    | ⟨1, _⟩ => exact (Nat.zero_add _).symm

/-! ## The row accumulator -/

/-- Case A (the second-set block index is 0): the row accumulator is restarted — +∞ stored, read back, lowered by the
    block's row minima. -/
theorem sA0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : cond0_0 i) (hc1 : ¬cond0_1 i) (hc2 : cond0_2 i) (hc3 : ¬cond0_3 i) (x0 x1 : Vec F S1024x1024 .f32) :
    sout0_A_0 c i arg2 harg2 arg3 harg3 arg4 harg4 arg5 harg5 arg6 harg6 arg7 harg7 hc0 hc1 hc2 hc3 x0 x1 = k0_pay5 x0 x1 (k0_pay4 (F := F)) := by
  unfold sout0_A_0
  rw [View.read_writes_eq_canon _ _ _ (scover0_A_0 c i arg2 harg2 arg3 harg3 arg4 harg4 arg5 harg5 arg6 harg6 arg7 harg7 hc0 hc1 hc2 hc3 x0 x1)]
  unfold kernelRun0_A
  dsimp only
  sl_unfold_words
  rw [View.canon_cons_unit_zero (S := S1x1024) hz, View.readCov_unit_zero (S := S1x1024) _ hz]
  simp only [View.readAt_eq_ld, harg2.read_unread, harg3.read_unread, View.ld_unit_zero (S := S1024x1024) hz]

/-- Case B: the row accumulator the point before left, lowered by the block's row minima. -/
theorem sB0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : ¬cond0_1 i) (hc2 : ¬cond0_2 i) (hc3 : ¬cond0_3 i) (x0 x1 : Vec F S1024x1024 .f32) (xs0 : Vec F S1x1024 .f32) (xs1 : Vec F S1x4096 .f32) :
    sout0_B_0 c i arg2 harg2 arg3 harg3 arg4 harg4 arg5 harg5 arg6 harg6 arg7 harg7 hc0 hc1 hc2 hc3 x0 x1 xs0 xs1 = k0_pay5 x0 x1 xs0 := by
  unfold sout0_B_0
  rw [View.read_writes_eq_canon _ _ _ (scover0_B_0 c i arg2 harg2 arg3 harg3 arg4 harg4 arg5 harg5 arg6 harg6 arg7 harg7 hc0 hc1 hc2 hc3 x0 x1 xs0 xs1)]
  unfold kernelRun0_B
  dsimp only
  sl_unfold_words
  rw [View.canon_unit_zero hz]
  simp only [View.readAt_eq_ld, harg2.read_unread, harg3.read_unread, harg6.read_unread, View.ld_unit_zero (S := S1024x1024) hz,
    View.ld_unit_zero (S := S1x1024) hz]

/-- Case C: the row accumulator the point before left, lowered by the block's row minima. -/
theorem sC0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : ¬cond0_3 i) (x0 x1 : Vec F S1024x1024 .f32) (xs0 : Vec F S1x1024 .f32) (xs1 : Vec F S1x4096 .f32) :
    sout0_C_0 c i arg2 harg2 arg3 harg3 arg4 harg4 arg5 harg5 arg6 harg6 arg7 harg7 hc0 hc1 hc2 hc3 x0 x1 xs0 xs1 = k0_pay5 x0 x1 xs0 := by
  unfold sout0_C_0
  rw [View.read_writes_eq_canon _ _ _ (scover0_C_0 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz]
  simp only [View.readAt_eq_ld, harg2.read_unread, harg3.read_unread, harg6.read_unread, View.ld_unit_zero (S := S1024x1024) hz,
    View.ld_unit_zero (S := S1x1024) hz]

/-- Case D (the second-set block index is 0): the row accumulator is restarted — +∞ stored, read back, lowered by the
    block's row minima. -/
theorem sD0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : cond0_0 i) (hc1 : ¬cond0_1 i) (hc2 : ¬cond0_2 i) (hc3 : ¬cond0_3 i) (x0 x1 : Vec F S1024x1024 .f32) (xs1 : Vec F S1x4096 .f32) :
    sout0_D_0 c i arg2 harg2 arg3 harg3 arg4 harg4 arg5 harg5 arg6 harg6 arg7 harg7 hc0 hc1 hc2 hc3 x0 x1 xs1 = k0_pay5 x0 x1 (k0_pay4 (F := F)) := by
  unfold sout0_D_0
  rw [View.read_writes_eq_canon _ _ _ (scover0_D_0 c i arg2 harg2 arg3 harg3 arg4 harg4 arg5 harg5 arg6 harg6 arg7 harg7 hc0 hc1 hc2 hc3 x0 x1 xs1)]
  unfold kernelRun0_D
  dsimp only
  sl_unfold_words
  rw [View.canon_cons_unit_zero (S := S1x1024) hz, View.readCov_unit_zero (S := S1x1024) _ hz]
  simp only [View.readAt_eq_ld, harg2.read_unread, harg3.read_unread, View.ld_unit_zero (S := S1024x1024) hz]

/-- Case E: the row accumulator the point before left, lowered by the block's row minima. -/
theorem sE0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : cond0_3 i) (x0 x1 : Vec F S1024x1024 .f32) (xs0 : Vec F S1x1024 .f32) (xs1 : Vec F S1x4096 .f32) :
    sout0_E_0 c i arg2 harg2 arg3 harg3 arg4 harg4 arg5 harg5 arg6 harg6 arg7 harg7 hc0 hc1 hc2 hc3 x0 x1 xs0 xs1 = k0_pay5 x0 x1 xs0 := by
  unfold sout0_E_0
  rw [View.read_writes_eq_canon _ _ _ (scover0_E_0 c i arg2 harg2 arg3 harg3 arg4 harg4 arg5 harg5 arg6 harg6 arg7 harg7 hc0 hc1 hc2 hc3 x0 x1 xs0 xs1)]
  unfold kernelRun0_E
  dsimp only
  sl_unfold_words
  rw [View.canon_unit_zero hz]
  simp only [View.readAt_eq_ld, harg2.read_unread, harg3.read_unread, harg6.read_unread, View.ld_unit_zero (S := S1024x1024) hz,
    View.ld_unit_zero (S := S1x1024) hz]

/-! ## The first result's block -/

/-- Case C (the last second-set block): the first result's block is the finished row accumulator. -/
theorem oC2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : ¬cond0_3 i) (x0 x1 : Vec F S1024x1024 .f32) (xs0 : Vec F S1x1024 .f32) (xs1 : Vec F S1x4096 .f32) :
    out0_C_2 c i arg2 harg2 arg3 harg3 arg4 harg4 arg5 harg5 arg6 harg6 arg7 harg7 hc0 hc1 hc2 hc3 x0 x1 xs0 xs1 = k0_pay5 x0 x1 xs0 := by
  unfold out0_C_2
  rw [View.read_writes_eq_canon _ _ _ (cover0_C_2 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz, View.readCov_unit_zero (S := S1x1024) _ hz]
  simp only [View.readAt_eq_ld, harg2.read_unread, harg3.read_unread, harg6.read_unread, View.ld_unit_zero (S := S1024x1024) hz,
    View.ld_unit_zero (S := S1x1024) hz]

/-- Case E (the last second-set block): the first result's block is the finished row accumulator. -/
theorem oE2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : cond0_3 i) (x0 x1 : Vec F S1024x1024 .f32) (xs0 : Vec F S1x1024 .f32) (xs1 : Vec F S1x4096 .f32) :
    out0_E_2 c i arg2 harg2 arg3 harg3 arg4 harg4 arg5 harg5 arg6 harg6 arg7 harg7 hc0 hc1 hc2 hc3 x0 x1 xs0 xs1 = k0_pay5 x0 x1 xs0 := by
  unfold out0_E_2
  rw [View.read_writes_eq_canon _ _ _ (cover0_E_2 c i arg2 harg2 arg3 harg3 arg4 harg4 arg5 harg5 arg6 harg6 arg7 harg7 hc0 hc1 hc2 hc3 x0 x1 xs0 xs1)]
  unfold kernelRun0_E
  dsimp only
  sl_unfold_words
  rw [View.canon_unit_zero hz, View.readCov_unit_zero (S := S1x1024) _ hz]
  simp only [View.readAt_eq_ld, harg2.read_unread, harg3.read_unread, harg6.read_unread, View.ld_unit_zero (S := S1024x1024) hz,
    View.ld_unit_zero (S := S1x1024) hz]

/-! ## The column accumulator -/

/-- Case A (the very first point), an entry of second-set block 0: +∞ everywhere, then this block lowered by the block's
    column minimum. -/
theorem sA1_in (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : cond0_0 i) (hc1 : ¬cond0_1 i) (hc2 : cond0_2 i) (hc3 : ¬cond0_3 i) (x0 x1 : Vec F S1024x1024 .f32) (y : S1x4096.Idx) (q : Fin 1024)
    (hy0 : (y 0).val = 0) (hy1 : (y 1).val = 1024 * (i 1).val + q.val) :
    sout0_A_1 c i arg2 harg2 arg3 harg3 arg4 harg4 arg5 harg5 arg6 harg6 arg7 harg7 hc0 hc1 hc2 hc3 x0 x1 y
      = k0_pay2 (k0_pay3 x0 x1) (View.ld (k0_pay1 (F := F)) (Rect.unit (s := S1x4096) (k0_off1 i) S1x1024.size (k0_off1_inb i))) (Idealize.ShloMosaic.ValueIdx.ix2 (0 : Fin 1) q) := by
  unfold sout0_A_1
  unfold kernelRun0_A
  dsimp only
  sl_unfold_run_names
  refine (View.read_writes_cons_unit_of_mem VS0_1 _ _ _ _ y (Idealize.ShloMosaic.ValueIdx.ix2 (0 : Fin 1) q) (k0_off1_eq i) ?_).trans ?_
  · intro a
    match a with
    | ⟨0, _⟩ => exact hy0
    | ⟨1, _⟩ => exact hy1
  · simp only [View.readAt_eq_ld, harg2.read_unread, harg3.read_unread, View.ld_unit_zero (S := S1024x1024) hz]
    rw [read_store_all]

/-- Case A, an entry of another second-set block: +∞. -/
theorem sA1_out (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : cond0_0 i) (hc1 : ¬cond0_1 i) (hc2 : cond0_2 i) (hc3 : ¬cond0_3 i) (x0 x1 : Vec F S1024x1024 .f32) (y : S1x4096.Idx)
    (hy : (y 1).val < 1024 * (i 1).val ∨ 1024 * (i 1).val + 1024 ≤ (y 1).val) :
    sout0_A_1 c i arg2 harg2 arg3 harg3 arg4 harg4 arg5 harg5 arg6 harg6 arg7 harg7 hc0 hc1 hc2 hc3 x0 x1 y = k0_pay1 (F := F) y := by
  unfold sout0_A_1
  unfold kernelRun0_A
  dsimp only
  sl_unfold_run_names
  refine (View.read_writes_cons_unit_of_not_mem VS0_1 _ _ _ _ y (k0_off1_eq i) (1 : Fin 2) (by exact hy)).trans ?_
  exact congrFun (read_store_all VS0_1 _ _) y

/-- Case B, an entry of the current second-set block: the column accumulator there is lowered by the block's
    column minimum. -/
theorem sB1_in (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : ¬cond0_1 i) (hc2 : ¬cond0_2 i) (hc3 : ¬cond0_3 i) (x0 x1 : Vec F S1024x1024 .f32) (xs0 : Vec F S1x1024 .f32) (xs1 : Vec F S1x4096 .f32) (y : S1x4096.Idx) (q : Fin 1024)
    (hy0 : (y 0).val = 0) (hy1 : (y 1).val = 1024 * (i 1).val + q.val) :
    sout0_B_1 c i arg2 harg2 arg3 harg3 arg4 harg4 arg5 harg5 arg6 harg6 arg7 harg7 hc0 hc1 hc2 hc3 x0 x1 xs0 xs1 y
      = k0_pay2 (k0_pay3 x0 x1) (View.ld xs1 (Rect.unit (s := S1x4096) (k0_off1 i) S1x1024.size (k0_off1_inb i))) (Idealize.ShloMosaic.ValueIdx.ix2 (0 : Fin 1) q) := by
  unfold sout0_B_1
  unfold kernelRun0_B
  dsimp only
  sl_unfold_run_names
  refine (View.read_writes_cons_unit_of_mem arg7.view _ _ _ [] y (Idealize.ShloMosaic.ValueIdx.ix2 (0 : Fin 1) q) (k0_off1_eq i) ?_).trans ?_
  · intro a
    match a with
    | ⟨0, _⟩ => exact hy0
    | ⟨1, _⟩ => exact hy1
  · simp only [View.readAt_eq_ld, harg2.read_unread, harg3.read_unread, harg7.read_unread, View.ld_unit_zero (S := S1024x1024) hz]

/-- Case B, an entry of another second-set block: the column accumulator there is kept. -/
theorem sB1_out (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : ¬cond0_1 i) (hc2 : ¬cond0_2 i) (hc3 : ¬cond0_3 i) (x0 x1 : Vec F S1024x1024 .f32) (xs0 : Vec F S1x1024 .f32) (xs1 : Vec F S1x4096 .f32) (y : S1x4096.Idx)
    (hy : (y 1).val < 1024 * (i 1).val ∨ 1024 * (i 1).val + 1024 ≤ (y 1).val) :
    sout0_B_1 c i arg2 harg2 arg3 harg3 arg4 harg4 arg5 harg5 arg6 harg6 arg7 harg7 hc0 hc1 hc2 hc3 x0 x1 xs0 xs1 y = xs1 y := by
  unfold sout0_B_1
  unfold kernelRun0_B
  dsimp only
  sl_unfold_run_names
  refine (View.read_writes_cons_unit_of_not_mem arg7.view _ _ _ [] y (k0_off1_eq i) (1 : Fin 2) (by exact hy)).trans ?_
  rw [View.writes_nil, harg7.read_unread]

/-- Case C, an entry of the current second-set block: the column accumulator there is lowered by the block's
    column minimum. -/
theorem sC1_in (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : ¬cond0_3 i) (x0 x1 : Vec F S1024x1024 .f32) (xs0 : Vec F S1x1024 .f32) (xs1 : Vec F S1x4096 .f32) (y : S1x4096.Idx) (q : Fin 1024)
    (hy0 : (y 0).val = 0) (hy1 : (y 1).val = 1024 * (i 1).val + q.val) :
    sout0_C_1 c i arg2 harg2 arg3 harg3 arg4 harg4 arg5 harg5 arg6 harg6 arg7 harg7 hc0 hc1 hc2 hc3 x0 x1 xs0 xs1 y
      = k0_pay2 (k0_pay3 x0 x1) (View.ld xs1 (Rect.unit (s := S1x4096) (k0_off1 i) S1x1024.size (k0_off1_inb i))) (Idealize.ShloMosaic.ValueIdx.ix2 (0 : Fin 1) q) := by
  unfold sout0_C_1
  unfold kernelRun0_C
  dsimp only
  sl_unfold_run_names
  refine (View.read_writes_cons_unit_of_mem arg7.view _ _ _ [] y (Idealize.ShloMosaic.ValueIdx.ix2 (0 : Fin 1) q) (k0_off1_eq i) ?_).trans ?_
  · intro a
    match a with
    | ⟨0, _⟩ => exact hy0
    | ⟨1, _⟩ => exact hy1
  · simp only [View.readAt_eq_ld, harg2.read_unread, harg3.read_unread, harg7.read_unread, View.ld_unit_zero (S := S1024x1024) hz]

/-- Case C, an entry of another second-set block: the column accumulator there is kept. -/
theorem sC1_out (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : ¬cond0_3 i) (x0 x1 : Vec F S1024x1024 .f32) (xs0 : Vec F S1x1024 .f32) (xs1 : Vec F S1x4096 .f32) (y : S1x4096.Idx)
    (hy : (y 1).val < 1024 * (i 1).val ∨ 1024 * (i 1).val + 1024 ≤ (y 1).val) :
    sout0_C_1 c i arg2 harg2 arg3 harg3 arg4 harg4 arg5 harg5 arg6 harg6 arg7 harg7 hc0 hc1 hc2 hc3 x0 x1 xs0 xs1 y = xs1 y := by
  unfold sout0_C_1
  unfold kernelRun0_C
  dsimp only
  sl_unfold_run_names
  refine (View.read_writes_cons_unit_of_not_mem arg7.view _ _ _ [] y (k0_off1_eq i) (1 : Fin 2) (by exact hy)).trans ?_
  rw [View.writes_nil, harg7.read_unread]

/-- Case D, an entry of the current second-set block: the column accumulator there is lowered by the block's
    column minimum. -/
theorem sD1_in (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : cond0_0 i) (hc1 : ¬cond0_1 i) (hc2 : ¬cond0_2 i) (hc3 : ¬cond0_3 i) (x0 x1 : Vec F S1024x1024 .f32) (xs1 : Vec F S1x4096 .f32) (y : S1x4096.Idx) (q : Fin 1024)
    (hy0 : (y 0).val = 0) (hy1 : (y 1).val = 1024 * (i 1).val + q.val) :
    sout0_D_1 c i arg2 harg2 arg3 harg3 arg4 harg4 arg5 harg5 arg6 harg6 arg7 harg7 hc0 hc1 hc2 hc3 x0 x1 xs1 y
      = k0_pay2 (k0_pay3 x0 x1) (View.ld xs1 (Rect.unit (s := S1x4096) (k0_off1 i) S1x1024.size (k0_off1_inb i))) (Idealize.ShloMosaic.ValueIdx.ix2 (0 : Fin 1) q) := by
  unfold sout0_D_1
  unfold kernelRun0_D
  dsimp only
  sl_unfold_run_names
  refine (View.read_writes_cons_unit_of_mem arg7.view _ _ _ [] y (Idealize.ShloMosaic.ValueIdx.ix2 (0 : Fin 1) q) (k0_off1_eq i) ?_).trans ?_
  · intro a
    match a with
    | ⟨0, _⟩ => exact hy0
    | ⟨1, _⟩ => exact hy1
  · simp only [View.readAt_eq_ld, harg2.read_unread, harg3.read_unread, harg7.read_unread, View.ld_unit_zero (S := S1024x1024) hz]

/-- Case D, an entry of another second-set block: the column accumulator there is kept. -/
theorem sD1_out (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : cond0_0 i) (hc1 : ¬cond0_1 i) (hc2 : ¬cond0_2 i) (hc3 : ¬cond0_3 i) (x0 x1 : Vec F S1024x1024 .f32) (xs1 : Vec F S1x4096 .f32) (y : S1x4096.Idx)
    (hy : (y 1).val < 1024 * (i 1).val ∨ 1024 * (i 1).val + 1024 ≤ (y 1).val) :
    sout0_D_1 c i arg2 harg2 arg3 harg3 arg4 harg4 arg5 harg5 arg6 harg6 arg7 harg7 hc0 hc1 hc2 hc3 x0 x1 xs1 y = xs1 y := by
  unfold sout0_D_1
  unfold kernelRun0_D
  dsimp only
  sl_unfold_run_names
  refine (View.read_writes_cons_unit_of_not_mem arg7.view _ _ _ [] y (k0_off1_eq i) (1 : Fin 2) (by exact hy)).trans ?_
  rw [View.writes_nil, harg7.read_unread]

/-- Case E, an entry of the current second-set block: the column accumulator there is lowered by the block's
    column minimum. -/
theorem sE1_in (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : cond0_3 i) (x0 x1 : Vec F S1024x1024 .f32) (xs0 : Vec F S1x1024 .f32) (xs1 : Vec F S1x4096 .f32) (y : S1x4096.Idx) (q : Fin 1024)
    (hy0 : (y 0).val = 0) (hy1 : (y 1).val = 1024 * (i 1).val + q.val) :
    sout0_E_1 c i arg2 harg2 arg3 harg3 arg4 harg4 arg5 harg5 arg6 harg6 arg7 harg7 hc0 hc1 hc2 hc3 x0 x1 xs0 xs1 y
      = k0_pay2 (k0_pay3 x0 x1) (View.ld xs1 (Rect.unit (s := S1x4096) (k0_off1 i) S1x1024.size (k0_off1_inb i))) (Idealize.ShloMosaic.ValueIdx.ix2 (0 : Fin 1) q) := by
  unfold sout0_E_1
  unfold kernelRun0_E
  dsimp only
  sl_unfold_run_names
  refine (View.read_writes_cons_unit_of_mem arg7.view _ _ _ [] y (Idealize.ShloMosaic.ValueIdx.ix2 (0 : Fin 1) q) (k0_off1_eq i) ?_).trans ?_
  · intro a
    match a with
    | ⟨0, _⟩ => exact hy0
    | ⟨1, _⟩ => exact hy1
  · simp only [View.readAt_eq_ld, harg2.read_unread, harg3.read_unread, harg7.read_unread, View.ld_unit_zero (S := S1024x1024) hz]

/-- Case E, an entry of another second-set block: the column accumulator there is kept. -/
theorem sE1_out (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : cond0_3 i) (x0 x1 : Vec F S1024x1024 .f32) (xs0 : Vec F S1x1024 .f32) (xs1 : Vec F S1x4096 .f32) (y : S1x4096.Idx)
    (hy : (y 1).val < 1024 * (i 1).val ∨ 1024 * (i 1).val + 1024 ≤ (y 1).val) :
    sout0_E_1 c i arg2 harg2 arg3 harg3 arg4 harg4 arg5 harg5 arg6 harg6 arg7 harg7 hc0 hc1 hc2 hc3 x0 x1 xs0 xs1 y = xs1 y := by
  unfold sout0_E_1
  unfold kernelRun0_E
  dsimp only
  sl_unfold_run_names
  refine (View.read_writes_cons_unit_of_not_mem arg7.view _ _ _ [] y (k0_off1_eq i) (1 : Fin 2) (by exact hy)).trans ?_
  rw [View.writes_nil, harg7.read_unread]

/-! ## The second result -/

/-- Case E (the very last point): the second result is the finished column accumulator. -/
theorem oE3 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S1x4096 .f32) (harg7 : arg7.IsWhole) (hc0 : ¬cond0_0 i) (hc1 : cond0_1 i) (hc2 : ¬cond0_2 i) (hc3 : cond0_3 i) (x0 x1 : Vec F S1024x1024 .f32) (xs0 : Vec F S1x1024 .f32) (xs1 : Vec F S1x4096 .f32) :
    out0_E_3 c i arg2 harg2 arg3 harg3 arg4 harg4 arg5 harg5 arg6 harg6 arg7 harg7 hc0 hc1 hc2 hc3 x0 x1 xs0 xs1 = sout0_E_1 c i arg2 harg2 arg3 harg3 arg4 harg4 arg5 harg5 arg6 harg6 arg7 harg7 hc0 hc1 hc2 hc3 x0 x1 xs0 xs1 := by
  unfold out0_E_3 sout0_E_1
  rw [View.read_writes_eq_canon _ _ _ (cover0_E_3 c i arg2 harg2 arg3 harg3 arg4 harg4 arg5 harg5 arg6 harg6 arg7 harg7 hc0 hc1 hc2 hc3 x0 x1 xs0 xs1)]
  unfold kernelRun0_E
  dsimp only
  sl_unfold_run_names
  rw [View.canon_unit_zero hz, View.readAt_eq_ld, View.ld_unit_zero (S := S1x4096) hz]

end Cert.KernelIdeal.Pieces

end
-- ==== Proof.Payload.lean ====
/-
  The kernel's arithmetic, read at an index at the exact extended-real instance. The distance block of two
  loaded blocks of points is, entry by entry, the scaled squared distance written out; the row accumulator
  is lowered by the block's row minima and the column accumulator by a block's column minima; the two
  initial accumulators are +∞ everywhere.
-/
import proofs.«151360_j65524021067918_1_alg».proof.Proof.Gen.KernelIdeal.Skeleton
import proofs.«151360_j65524021067918_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Payload

open Idealize.ShloMosaic Idealize.ShloMosaic.ValueIdx Cert.KernelIdeal Cert.KernelIdeal.Gen

/-- The initial row accumulator is +∞ everywhere. -/
theorem pay4_apply (y : S1x1024.Idx) : k0_pay4 (F := Ideal) y = ⊤ := by
  unfold k0_pay4
  show shapeCast _ (broadcast _ (Scalar.ofBits .f32 0x7F800000#32)) _ y = _
  rw [shapeCast_self]
  exact Cert.Spec.inf_f32

/-- The initial column accumulator is +∞ everywhere. -/
theorem pay1_apply (y : S1x4096.Idx) : k0_pay1 (F := Ideal) y = ⊤ := by
  unfold k0_pay1
  show shapeCast _ (broadcast _ (Scalar.ofBits .f32 0x7F800000#32)) _ y = _
  rw [shapeCast_self]
  exact Cert.Spec.inf_f32

/-- A `vector.multi_reduction <minimumf>` over one axis, read at the exact instance: the fold of `min` from the
    accumulator's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minima of a block's rows: at `p`, the least entry of row `p`. -/
theorem rowMin_apply (V : FVec Ideal S1024x1024 .f32) (p : Fin 1024) :
    multiReduction .minimumf [1] S1024 V 0x7F800000#32 reduces_S1024x1024_S1024 (.inl rfl) rfl (ix1 p)
      = (Finset.univ : Finset (Fin 1024)).fold min ⊤ (fun q => V (ix2 p q)) := by
  refine (multiReduction_minimumf_single V _ reduces_S1024x1024_S1024 _ _ (ix1 p)).trans ?_
  have hf : (V ∘ reduces_S1024x1024_S1024.lift (ix1 p)) = fun q : Fin 1024 => V (ix2 p q) :=
    funext fun (q : Fin 1024) => congrArg V (funext fun a => Fin.ext (by match a with | ⟨0, _⟩ => rfl | ⟨1, _⟩ => rfl))
  rw [hf, Ideal.ofBits_def, Cert.Spec.inf_f32]
  rfl

/-- The minima of a block's columns: at `q`, the least entry of column `q`. -/
theorem colMin_apply (V : FVec Ideal S1024x1024 .f32) (q : Fin 1024) :
    multiReduction .minimumf [0] S1024 V 0x7F800000#32 reduces_S1024x1024_S1024_2 (.inl rfl) rfl (ix1 q)
      = (Finset.univ : Finset (Fin 1024)).fold min ⊤ (fun p => V (ix2 p q)) := by
  refine (multiReduction_minimumf_single V _ reduces_S1024x1024_S1024_2 _ _ (ix1 q)).trans ?_
  have hf : (V ∘ reduces_S1024x1024_S1024_2.lift (ix1 q)) = fun p : Fin 1024 => V (ix2 p q) :=
    funext fun (p : Fin 1024) => congrArg V (funext fun a => Fin.ext (by match a with | ⟨0, _⟩ => rfl | ⟨1, _⟩ => rfl))
  rw [hf, Ideal.ofBits_def, Cert.Spec.inf_f32]
  rfl

/-- An accumulator row lowered by a vector of 1024 minima, entry by entry. -/
theorem accMin_apply (v : FVec Ideal S1x1024 .f32) (m : FVec Ideal S1024 .f32) (p : Fin 1024) :
    shapeCast S1x1024 (minimumf v (shapeCast S1x1024 m shapeCasts_S1024_S1x1024)) shapeCasts_S1x1024_S1x1024
        (ix2 (0 : Fin 1) p)
      = min (v (ix2 (0 : Fin 1) p)) (m (ix1 p)) := by
  rw [shapeCast_self]
  exact congrArg (min (v (ix2 (0 : Fin 1) p))) (shapeCast_a_1a_apply m shapeCasts_S1024_S1x1024 0 p)

/-- The column accumulator's block after a distance block: lowered by the block's column minima. -/
theorem pay2_apply (V : FVec Ideal S1024x1024 .f32) (v : FVec Ideal S1x1024 .f32) (q : Fin 1024) :
    k0_pay2 (F := Ideal) V v (ix2 (0 : Fin 1) q)
      = min (v (ix2 (0 : Fin 1) q)) ((Finset.univ : Finset (Fin 1024)).fold min ⊤ (fun p => V (ix2 p q))) := by
  unfold k0_pay2
  exact (accMin_apply v _ q).trans (congrArg (min (v (ix2 (0 : Fin 1) q))) (colMin_apply V q))

/-- The row accumulator after a distance block: lowered by the block's row minima. -/
theorem pay5_apply (X Y : FVec Ideal S1024x1024 .f32) (v : FVec Ideal S1x1024 .f32) (p : Fin 1024) :
    k0_pay5 (F := Ideal) X Y v (ix2 (0 : Fin 1) p)
      = min (v (ix2 (0 : Fin 1) p))
          ((Finset.univ : Finset (Fin 1024)).fold min ⊤ (fun q => k0_pay3 (F := Ideal) X Y (ix2 p q))) := by
  unfold k0_pay5
  exact (accMin_apply v _ p).trans (congrArg (min (v (ix2 (0 : Fin 1) p))) (rowMin_apply (k0_pay3 (F := Ideal) X Y) p))

/-- The sums of squares of a block's rows: at `p`, `‖xₚ‖²`. -/
theorem sumsq_apply (X : FVec Ideal S1024x1024 .f32) (p : Fin 1024) :
    multiReduction .add [1] S1024 (mulf X X) 0x00000000#32 reduces_S1024x1024_S1024 (.inl rfl) rfl (ix1 p)
      = ∑ d : Fin 1024, X (ix2 p d) * X (ix2 p d) := by
  refine (Ideal.multiReduction_add_single (mulf X X) _ reduces_S1024x1024_S1024 _ _ (ix1 p)).trans ?_
  refine Finset.sum_congr rfl fun (d : Fin 1024) _ => ?_
  have e : reduces_S1024x1024_S1024.lift (ix1 p) d = ix2 p d :=
    funext fun a => Fin.ext (by match a with | ⟨0, _⟩ => rfl | ⟨1, _⟩ => rfl)
  rw [e]
  rfl

/-- A vector of `a` numbers cast to a column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_dot_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_dot_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem rhs_dot_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem rhs_dot_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The matrix product into the zero block: at `(p, q)`, the sum over `k` of the left operand at `(p, k)` times the
    right at `(k, q)`. -/
theorem gram_apply (A B : FVec Ideal S1024x1024 .bf16) (p q : Fin 1024) :
    matmul dot_S1024x1024_S1024x1024_S1024x1024_1_0_0_1_n_n none A B (constant S1024x1024 .f32 0x00000000#32) (ix2 p q)
      = ∑ k : Fin 1024, A (ix2 p k) * B (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact lhs_dot_0 _ _
      | ⟨1, _⟩ => exact (lhs_dot_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (rhs_dot_0 _ _).trans hk
      | ⟨1, _⟩ => exact rhs_dot_1 _ _)
  rw [el, er]

/-- The distance block: at `(p, q)`, `(‖xₚ‖² − 2 xₚ·y_q + ‖y_q‖²) · 2⁻¹⁰` of the two loaded blocks. -/
theorem pay3_apply (X Y : FVec Ideal S1024x1024 .f32) (p q : Fin 1024) :
    k0_pay3 (F := Ideal) X Y (ix2 p q)
      = ((∑ d : Fin 1024, X (ix2 p d) * X (ix2 p d))
            - Ideal.ofBits .f32 0x40000000#32 * (∑ d : Fin 1024, X (ix2 p d) * Y (ix2 q d))
          + ∑ d : Fin 1024, Y (ix2 q d) * Y (ix2 q d)) * Ideal.ofBits .f32 0x3A800000#32 := by
  unfold k0_pay3
  show (broadcastTo S1024x1024
            (shapeCast S1024x1
              (multiReduction .add [1] S1024 (mulf X X) 0x00000000#32 reduces_S1024x1024_S1024 (.inl rfl) rfl)
              shapeCasts_S1024_S1024x1)
            broadcasts_S1024x1_S1024x1024 (ix2 p q)
          - Ideal.ofBits .f32 0x40000000#32
            * matmul dot_S1024x1024_S1024x1024_S1024x1024_1_0_0_1_n_n none
                (truncf .bf16 X bitsLt_bf16_f32 : FVec Ideal S1024x1024 .bf16)
                (transpose S1024x1024 [1, 0] (truncf .bf16 Y bitsLt_bf16_f32 : FVec Ideal S1024x1024 .bf16)
                  transposes_S1024x1024_p1_0_S1024x1024)
                (constant S1024x1024 .f32 0x00000000#32) (ix2 p q)
          + broadcastTo S1024x1024
              (shapeCast S1x1024
                (multiReduction .add [1] S1024 (mulf Y Y) 0x00000000#32 reduces_S1024x1024_S1024 (.inl rfl) rfl)
                shapeCasts_S1024_S1x1024)
              broadcasts_S1x1024_S1024x1024 (ix2 p q))
        * Ideal.ofBits .f32 0x3A800000#32 = _
  rw [broadcastTo_a1_ab_apply, shapeCast_a_a1_apply, sumsq_apply, broadcastTo_1b_ab_apply, shapeCast_a_1a_apply,
    sumsq_apply, gram_apply]
  refine congrArg (fun z => ((∑ d : Fin 1024, X (ix2 p d) * X (ix2 p d)) - Ideal.ofBits .f32 0x40000000#32 * z
      + ∑ d : Fin 1024, Y (ix2 q d) * Y (ix2 q d)) * Ideal.ofBits .f32 0x3A800000#32)
    (Finset.sum_congr rfl fun (k : Fin 1024) _ => ?_)
  rw [transpose_ix2_apply]
  rfl

end Cert.KernelIdeal.Payload

end
-- ==== Proof.Sweep.lean ====
/-
  The sweep over the 16 grid points. Grid point `t` pairs first-set block `t / 4` with second-set block `t % 4`: the
  two input windows hand the body rows `1024·(t/4) …` of the first set and rows `1024·(t%4) …` of the second, so the
  distance block it computes is the specification's `dist` at those points (`dist_blk`), its row minima lower the row
  accumulator by `rowPart` and its column minima lower the current block of the column accumulator by `colPart`. By
  induction on the point, through the five control cases, the two scratch accumulators after point `n` are the
  specification's running minima `rowAcc` and `colAcc` (`inv`), at the exact extended-real instance.
-/
import proofs.«151360_j65524021067918_1_alg».proof.Proof.Pieces
import proofs.«151360_j65524021067918_1_alg».proof.Proof.Payload
import proofs.«151360_j65524021067918_1_alg».proof.Proof.Spec

set_option maxRecDepth 16384

noncomputable section

open Idealize.ShloMosaic Idealize.ShloMosaic.TcCoe Idealize.SL.Sem Idealize.ShloMosaic.ValueIdx

namespace Cert.KernelIdeal.Sweep

open Cert.KernelIdeal Cert.KernelIdeal.Gen

variable (m : (ℓ : Loc nD τ sig) → Buf (Elt Ideal) ℓ)

/-- The first point set: core `c`'s first argument array. -/
abbrev Xs (c : Dev nD) : Cert.Spec.Pts := m ((c : Thread nD τ).loc main_arg0)
/-- The second point set: its second argument array. -/
abbrev Ys (c : Dev nD) : Cert.Spec.Pts := m ((c : Thread nD τ).loc main_arg1)
/-- The distance matrix of the two. -/
abbrev D (c : Dev nD) : Fin 4096 → Fin 4096 → EReal := Cert.Spec.dist (Xs m c) (Ys m c)

/-- Where the windows sit at grid point `t`: the first input at row block `t / 4`, the second at row block `t % 4`,
    which is also the body's second grid coordinate. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ ((grid0.coords t) (1 : Fin 2)).val = t.val % 4 :=
  (by decide +kernel : ∀ t : Fin grid0.N, _)

/-- The first input's block at point `t` holds the rows of first-set block `t / 4`. -/
theorem iblk0_apply (c : Dev nD) (t : Fin cfg0.N) (p d : Fin 1024) :
    (iblk m c 0 t : Vec Ideal S1024x1024 .f32) (ix2 p d) = Xs m c (ix2 (Cert.Spec.blk (t.val / 4) p) d) := by
  have ht := t.isLt
  have hN : cfg0.N = 16 := N_0
  unfold iblk
  rw [View.read_apply]
  refine (congrFun (V_main_arg0 m c) _).trans (congrArg (m ((c : Thread nD τ).loc main_arg0)) (funext fun a => Fin.ext ?_))
  match a with
  | ⟨0, _⟩ =>
    show win0_0.index t 0 * 1024 + 1 * p.val = (Cert.Spec.blk (t.val / 4) p).val
    rw [(idx_facts t).1, Cert.Spec.blk_val (by omega)]; omega
  | ⟨1, _⟩ =>
    show win0_0.index t 1 * 1024 + 1 * d.val = d.val
    rw [(idx_facts t).2.1]; omega

/-- The second input's block at point `t` holds the rows of second-set block `t % 4`. -/
theorem iblk1_apply (c : Dev nD) (t : Fin cfg0.N) (q d : Fin 1024) :
    (iblk m c 1 t : Vec Ideal S1024x1024 .f32) (ix2 q d) = Ys m c (ix2 (Cert.Spec.blk (t.val % 4) q) d) := by
  have ht := t.isLt
  have hN : cfg0.N = 16 := N_0
  unfold iblk
  rw [View.read_apply]
  refine (congrFun (V_main_arg1 m c) _).trans (congrArg (m ((c : Thread nD τ).loc main_arg1)) (funext fun a => Fin.ext ?_))
  match a with
  | ⟨0, _⟩ =>
    show win0_1.index t 0 * 1024 + 1 * q.val = (Cert.Spec.blk (t.val % 4) q).val
    rw [(idx_facts t).2.2.1, Cert.Spec.blk_val (by omega)]; omega
  | ⟨1, _⟩ =>
    show win0_1.index t 1 * 1024 + 1 * d.val = d.val
    rw [(idx_facts t).2.2.2.1]; omega

/-- The distance block of point `t` is the distance matrix at first-set block `t / 4`, second-set block `t % 4`. -/
theorem dist_blk (c : Dev nD) (t : Fin cfg0.N) (p q : Fin 1024) :
    k0_pay3 (F := Ideal) (iblk m c 0 t) (iblk m c 1 t) (ix2 p q)
      = D m c (Cert.Spec.blk (t.val / 4) p) (Cert.Spec.blk (t.val % 4) q) := by
  refine (Payload.pay3_apply (iblk m c 0 t) (iblk m c 1 t) p q).trans ?_
  have e0 : ∀ d : Fin 1024, (iblk m c 0 t : Vec Ideal S1024x1024 .f32) (ix2 p d) = Xs m c (ix2 (Cert.Spec.blk (t.val / 4) p) d) :=
    fun d => iblk0_apply m c t p d
  have e1 : ∀ d : Fin 1024, (iblk m c 1 t : Vec Ideal S1024x1024 .f32) (ix2 q d) = Ys m c (ix2 (Cert.Spec.blk (t.val % 4) q) d) :=
    fun d => iblk1_apply m c t q d
  show _ = Cert.Spec.dist (Xs m c) (Ys m c) (Cert.Spec.blk (t.val / 4) p) (Cert.Spec.blk (t.val % 4) q)
  unfold Cert.Spec.dist Cert.Spec.sqNorm Cert.Spec.dot
  simp only [e0, e1]

/-- One point's step of the row accumulator: lowered by the least distance to the point's second-set block. -/
theorem row_step (c : Dev nD) (t : Fin cfg0.N) (v : FVec Ideal S1x1024 .f32) (p : Fin 1024) :
    k0_pay5 (F := Ideal) (iblk m c 0 t) (iblk m c 1 t) v (ix2 (0 : Fin 1) p)
      = min (v (ix2 (0 : Fin 1) p)) (Cert.Spec.rowPart (D m c) (t.val / 4) (t.val % 4) p) := by
  refine (Payload.pay5_apply (iblk m c 0 t) (iblk m c 1 t) v p).trans ?_
  have e : (fun q : Fin 1024 => k0_pay3 (F := Ideal) (iblk m c 0 t) (iblk m c 1 t) (ix2 p q))
      = fun q => D m c (Cert.Spec.blk (t.val / 4) p) (Cert.Spec.blk (t.val % 4) q) := funext fun q => dist_blk m c t p q
  rw [e]
  rfl

/-- One point's step of the column accumulator at an entry of the point's second-set block: lowered by the least
    distance from the point's first-set block. -/
theorem col_step (c : Dev nD) (t : Fin cfg0.N) (v : FVec Ideal S1x1024 .f32) (q : Fin 1024) :
    k0_pay2 (F := Ideal) (k0_pay3 (iblk m c 0 t) (iblk m c 1 t)) v (ix2 (0 : Fin 1) q)
      = min (v (ix2 (0 : Fin 1) q)) (Cert.Spec.colPart (D m c) (t.val / 4) (Cert.Spec.blk (t.val % 4) q)) := by
  refine (Payload.pay2_apply (k0_pay3 (iblk m c 0 t) (iblk m c 1 t)) v q).trans ?_
  have e : (fun p : Fin 1024 => k0_pay3 (F := Ideal) (iblk m c 0 t) (iblk m c 1 t) (ix2 p q))
      = fun p => D m c (Cert.Spec.blk (t.val / 4) p) (Cert.Spec.blk (t.val % 4) q) := funext fun p => dist_blk m c t p q
  rw [e]
  rfl

/-- THE INVARIANT: after grid point `n` the two scratch accumulators hold the specification's running minima. -/
theorem inv (c : Dev nD) : ∀ (n : ℕ) (h : n < cfg0.N),
    (outsAt0 m c n h).2.2.1 = (fun y : S1x1024.Idx => Cert.Spec.rowAcc (D m c) n ⟨(y 1).val, (y 1).isLt⟩)
    ∧ (outsAt0 m c n h).2.2.2 = (fun y : S1x4096.Idx => Cert.Spec.colAcc (D m c) n ⟨(y 1).val, (y 1).isLt⟩)
  | 0, h => by
    rw [outsAt0_A m c (⟨0, h⟩ : Fin cfg0.N) rfl (by show ¬(0 % 4 = 3); decide) rfl (by show ¬(0 % 16 = 15); decide)]
    dsimp only
    constructor
    · funext y
      obtain ⟨u, p, rfl⟩ : ∃ (u : Fin 1) (p : Fin 1024), y = ix2 u p := ⟨y 0, y 1, eq_ix2 y⟩
      obtain rfl : u = 0 := Subsingleton.elim _ _
      refine (congrFun (Pieces.sA0 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) scM0_0 (Memref.isWhole_whole _) scM0_1 (Memref.isWhole_whole _) _ _ _ _ (iblk m c 0 (⟨0, h⟩ : Fin cfg0.N)) (iblk m c 1 (⟨0, h⟩ : Fin cfg0.N))) (ix2 0 p)).trans ?_
      refine (row_step m c (⟨0, h⟩ : Fin cfg0.N) _ p).trans ?_
      rw [Payload.pay4_apply]
      show min ⊤ (Cert.Spec.rowPart (D m c) (0 / 4) (0 % 4) p) = Cert.Spec.rowAcc (D m c) 0 p
      rw [Cert.Spec.rowAcc]
    · funext y
      obtain ⟨u, r, rfl⟩ : ∃ (u : Fin 1) (r : Fin 4096), y = ix2 u r := ⟨y 0, y 1, eq_ix2 y⟩
      obtain rfl : u = 0 := Subsingleton.elim _ _
      have hr := r.isLt
      show _ = Cert.Spec.colAcc (D m c) 0 r
      rw [Cert.Spec.colAcc]
      by_cases hb : r.val / 1024 = 0
      · rw [if_pos hb]
        have hq : r.val % 1024 < 1024 := Nat.mod_lt _ (by decide)
        have er : r = Cert.Spec.blk 0 ⟨r.val % 1024, hq⟩ :=
          Fin.ext (by rw [Cert.Spec.blk_val (by omega)]; show r.val = 1024 * 0 + r.val % 1024; omega)
        refine (Pieces.sA1_in (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) scM0_0 (Memref.isWhole_whole _) scM0_1 (Memref.isWhole_whole _) _ _ _ _ (iblk m c 0 (⟨0, h⟩ : Fin cfg0.N)) (iblk m c 1 (⟨0, h⟩ : Fin cfg0.N)) (ix2 0 r) ⟨r.val % 1024, hq⟩ rfl ?_).trans ?_
        · show r.val = 1024 * ((grid0.coords (⟨0, h⟩ : Fin cfg0.N)) 1).val + r.val % 1024
          rw [(idx_facts (⟨0, h⟩ : Fin cfg0.N)).2.2.2.2]
          show r.val = 1024 * (0 % 4) + r.val % 1024
          omega
        · refine (col_step m c (⟨0, h⟩ : Fin cfg0.N) _ ⟨r.val % 1024, hq⟩).trans ?_
          show min (k0_pay1 (F := Ideal) _) (Cert.Spec.colPart (D m c) (0 / 4) (Cert.Spec.blk (0 % 4) ⟨r.val % 1024, hq⟩)) = _
          rw [Payload.pay1_apply, ← er]
      · rw [if_neg hb]
        refine (Pieces.sA1_out (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) scM0_0 (Memref.isWhole_whole _) scM0_1 (Memref.isWhole_whole _) _ _ _ _ (iblk m c 0 (⟨0, h⟩ : Fin cfg0.N)) (iblk m c 1 (⟨0, h⟩ : Fin cfg0.N)) (ix2 0 r) ?_).trans (Payload.pay1_apply _)
        show r.val < 1024 * ((grid0.coords (⟨0, h⟩ : Fin cfg0.N)) 1).val ∨ 1024 * ((grid0.coords (⟨0, h⟩ : Fin cfg0.N)) 1).val + 1024 ≤ r.val
        rw [(idx_facts (⟨0, h⟩ : Fin cfg0.N)).2.2.2.2]
        show r.val < 1024 * (0 % 4) ∨ 1024 * (0 % 4) + 1024 ≤ r.val
        omega
  | n + 1, h => by
    have ih := inv c n (Nat.lt_of_succ_lt h)
    have hN : cfg0.N = 16 := N_0
    by_cases h0 : (n + 1) % 4 = 0
    · -- a new first-set block begins (not the very first point)
      have h1 : ¬(n + 1) % 4 = 3 := by omega
      have h2 : ¬(n + 1) % 16 = 0 := by omega
      have h3 : ¬(n + 1) % 16 = 15 := by omega
      rw [outsAt0_D m c (⟨n + 1, h⟩ : Fin cfg0.N) h0 h1 h2 h3]
      dsimp only
      constructor
      · -- the row accumulator is restarted
        funext y
        obtain ⟨u, p, rfl⟩ : ∃ (u : Fin 1) (p : Fin 1024), y = ix2 u p := ⟨y 0, y 1, eq_ix2 y⟩
        obtain rfl : u = 0 := Subsingleton.elim _ _
        refine (congrFun (Pieces.sD0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _) (ix2 0 p)).trans ?_
        refine (row_step m c (⟨n + 1, h⟩ : Fin cfg0.N) _ p).trans ?_
        rw [Payload.pay4_apply]
        show _ = Cert.Spec.rowAcc (D m c) (n + 1) p
        rw [Cert.Spec.rowAcc, if_pos h0]
      · -- the column accumulator: the current second-set block lowered, the others kept
        funext y
        obtain ⟨u, r, rfl⟩ : ∃ (u : Fin 1) (r : Fin 4096), y = ix2 u r := ⟨y 0, y 1, eq_ix2 y⟩
        obtain rfl : u = 0 := Subsingleton.elim _ _
        have hr := r.isLt
        show _ = Cert.Spec.colAcc (D m c) (n + 1) r
        rw [Cert.Spec.colAcc]
        by_cases hb : r.val / 1024 = (n + 1) % 4
        · rw [if_pos hb]
          have hq : r.val % 1024 < 1024 := Nat.mod_lt _ (by decide)
          have er : r = Cert.Spec.blk ((n + 1) % 4) ⟨r.val % 1024, hq⟩ :=
            Fin.ext (by rw [Cert.Spec.blk_val (by omega)]; show r.val = 1024 * ((n + 1) % 4) + r.val % 1024; omega)
          refine (Pieces.sD1_in (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ (ix2 0 r) ⟨r.val % 1024, hq⟩ rfl ?_).trans ?_
          · show r.val = 1024 * ((grid0.coords (⟨n + 1, h⟩ : Fin cfg0.N)) 1).val + r.val % 1024
            rw [(idx_facts (⟨n + 1, h⟩ : Fin cfg0.N)).2.2.2.2]
            show r.val = 1024 * ((n + 1) % 4) + r.val % 1024
            omega
          · refine (col_step m c (⟨n + 1, h⟩ : Fin cfg0.N) _ ⟨r.val % 1024, hq⟩).trans ?_
            rw [← er]
            refine congrArg (fun z => min z _) ?_
            refine (congrFun ih.2 _).trans (congrArg (Cert.Spec.colAcc (D m c) n) (Fin.ext ?_))
            show (k0_off1 (grid0.coords (⟨n + 1, h⟩ : Fin cfg0.N))) 1 + 1 * (r.val % 1024) = r.val
            rw [k0_off1_eq, (idx_facts (⟨n + 1, h⟩ : Fin cfg0.N)).2.2.2.2]
            show 1024 * ((n + 1) % 4) + 1 * (r.val % 1024) = r.val
            omega
        · rw [if_neg hb]
          refine (Pieces.sD1_out (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ (ix2 0 r) ?_).trans (congrFun ih.2 (ix2 0 r))
          show r.val < 1024 * ((grid0.coords (⟨n + 1, h⟩ : Fin cfg0.N)) 1).val ∨ 1024 * ((grid0.coords (⟨n + 1, h⟩ : Fin cfg0.N)) 1).val + 1024 ≤ r.val
          rw [(idx_facts (⟨n + 1, h⟩ : Fin cfg0.N)).2.2.2.2]
          show r.val < 1024 * ((n + 1) % 4) ∨ 1024 * ((n + 1) % 4) + 1024 ≤ r.val
          omega
    · by_cases h1 : (n + 1) % 4 = 3
      · have h2 : ¬(n + 1) % 16 = 0 := by omega
        by_cases h3 : (n + 1) % 16 = 15
        · -- the very last point
          rw [outsAt0_E m c (⟨n + 1, h⟩ : Fin cfg0.N) h0 h1 h2 h3]
          dsimp only
          constructor
          · -- the row accumulator goes on from what the point before left
            funext y
            obtain ⟨u, p, rfl⟩ : ∃ (u : Fin 1) (p : Fin 1024), y = ix2 u p := ⟨y 0, y 1, eq_ix2 y⟩
            obtain rfl : u = 0 := Subsingleton.elim _ _
            refine (congrFun (Pieces.sE0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _) (ix2 0 p)).trans ?_
            refine (row_step m c (⟨n + 1, h⟩ : Fin cfg0.N) _ p).trans ?_
            show _ = Cert.Spec.rowAcc (D m c) (n + 1) p
            rw [Cert.Spec.rowAcc, if_neg h0]
            exact congrArg (fun z => min z _) (congrFun ih.1 (ix2 0 p))
          · -- the column accumulator: the current second-set block lowered, the others kept
            funext y
            obtain ⟨u, r, rfl⟩ : ∃ (u : Fin 1) (r : Fin 4096), y = ix2 u r := ⟨y 0, y 1, eq_ix2 y⟩
            obtain rfl : u = 0 := Subsingleton.elim _ _
            have hr := r.isLt
            show _ = Cert.Spec.colAcc (D m c) (n + 1) r
            rw [Cert.Spec.colAcc]
            by_cases hb : r.val / 1024 = (n + 1) % 4
            · rw [if_pos hb]
              have hq : r.val % 1024 < 1024 := Nat.mod_lt _ (by decide)
              have er : r = Cert.Spec.blk ((n + 1) % 4) ⟨r.val % 1024, hq⟩ :=
                Fin.ext (by rw [Cert.Spec.blk_val (by omega)]; show r.val = 1024 * ((n + 1) % 4) + r.val % 1024; omega)
              refine (Pieces.sE1_in (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _ (ix2 0 r) ⟨r.val % 1024, hq⟩ rfl ?_).trans ?_
              · show r.val = 1024 * ((grid0.coords (⟨n + 1, h⟩ : Fin cfg0.N)) 1).val + r.val % 1024
                rw [(idx_facts (⟨n + 1, h⟩ : Fin cfg0.N)).2.2.2.2]
                show r.val = 1024 * ((n + 1) % 4) + r.val % 1024
                omega
              · refine (col_step m c (⟨n + 1, h⟩ : Fin cfg0.N) _ ⟨r.val % 1024, hq⟩).trans ?_
                rw [← er]
                refine congrArg (fun z => min z _) ?_
                refine (congrFun ih.2 _).trans (congrArg (Cert.Spec.colAcc (D m c) n) (Fin.ext ?_))
                show (k0_off1 (grid0.coords (⟨n + 1, h⟩ : Fin cfg0.N))) 1 + 1 * (r.val % 1024) = r.val
                rw [k0_off1_eq, (idx_facts (⟨n + 1, h⟩ : Fin cfg0.N)).2.2.2.2]
                show 1024 * ((n + 1) % 4) + 1 * (r.val % 1024) = r.val
                omega
            · rw [if_neg hb]
              refine (Pieces.sE1_out (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _ (ix2 0 r) ?_).trans (congrFun ih.2 (ix2 0 r))
              show r.val < 1024 * ((grid0.coords (⟨n + 1, h⟩ : Fin cfg0.N)) 1).val ∨ 1024 * ((grid0.coords (⟨n + 1, h⟩ : Fin cfg0.N)) 1).val + 1024 ≤ r.val
              rw [(idx_facts (⟨n + 1, h⟩ : Fin cfg0.N)).2.2.2.2]
              show r.val < 1024 * ((n + 1) % 4) ∨ 1024 * ((n + 1) % 4) + 1024 ≤ r.val
              omega
        · -- the last second-set block of a first-set block
          rw [outsAt0_C m c (⟨n + 1, h⟩ : Fin cfg0.N) h0 h1 h2 h3]
          dsimp only
          constructor
          · -- the row accumulator goes on from what the point before left
            funext y
            obtain ⟨u, p, rfl⟩ : ∃ (u : Fin 1) (p : Fin 1024), y = ix2 u p := ⟨y 0, y 1, eq_ix2 y⟩
            obtain rfl : u = 0 := Subsingleton.elim _ _
            refine (congrFun (Pieces.sC0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _) (ix2 0 p)).trans ?_
            refine (row_step m c (⟨n + 1, h⟩ : Fin cfg0.N) _ p).trans ?_
            show _ = Cert.Spec.rowAcc (D m c) (n + 1) p
            rw [Cert.Spec.rowAcc, if_neg h0]
            exact congrArg (fun z => min z _) (congrFun ih.1 (ix2 0 p))
          · -- the column accumulator: the current second-set block lowered, the others kept
            funext y
            obtain ⟨u, r, rfl⟩ : ∃ (u : Fin 1) (r : Fin 4096), y = ix2 u r := ⟨y 0, y 1, eq_ix2 y⟩
            obtain rfl : u = 0 := Subsingleton.elim _ _
            have hr := r.isLt
            show _ = Cert.Spec.colAcc (D m c) (n + 1) r
            rw [Cert.Spec.colAcc]
            by_cases hb : r.val / 1024 = (n + 1) % 4
            · rw [if_pos hb]
              have hq : r.val % 1024 < 1024 := Nat.mod_lt _ (by decide)
              have er : r = Cert.Spec.blk ((n + 1) % 4) ⟨r.val % 1024, hq⟩ :=
                Fin.ext (by rw [Cert.Spec.blk_val (by omega)]; show r.val = 1024 * ((n + 1) % 4) + r.val % 1024; omega)
              refine (Pieces.sC1_in (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _ (ix2 0 r) ⟨r.val % 1024, hq⟩ rfl ?_).trans ?_
              · show r.val = 1024 * ((grid0.coords (⟨n + 1, h⟩ : Fin cfg0.N)) 1).val + r.val % 1024
                rw [(idx_facts (⟨n + 1, h⟩ : Fin cfg0.N)).2.2.2.2]
                show r.val = 1024 * ((n + 1) % 4) + r.val % 1024
                omega
              · refine (col_step m c (⟨n + 1, h⟩ : Fin cfg0.N) _ ⟨r.val % 1024, hq⟩).trans ?_
                rw [← er]
                refine congrArg (fun z => min z _) ?_
                refine (congrFun ih.2 _).trans (congrArg (Cert.Spec.colAcc (D m c) n) (Fin.ext ?_))
                show (k0_off1 (grid0.coords (⟨n + 1, h⟩ : Fin cfg0.N))) 1 + 1 * (r.val % 1024) = r.val
                rw [k0_off1_eq, (idx_facts (⟨n + 1, h⟩ : Fin cfg0.N)).2.2.2.2]
                show 1024 * ((n + 1) % 4) + 1 * (r.val % 1024) = r.val
                omega
            · rw [if_neg hb]
              refine (Pieces.sC1_out (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _ (ix2 0 r) ?_).trans (congrFun ih.2 (ix2 0 r))
              show r.val < 1024 * ((grid0.coords (⟨n + 1, h⟩ : Fin cfg0.N)) 1).val ∨ 1024 * ((grid0.coords (⟨n + 1, h⟩ : Fin cfg0.N)) 1).val + 1024 ≤ r.val
              rw [(idx_facts (⟨n + 1, h⟩ : Fin cfg0.N)).2.2.2.2]
              show r.val < 1024 * ((n + 1) % 4) ∨ 1024 * ((n + 1) % 4) + 1024 ≤ r.val
              omega
      · -- a middle point
        have h2 : ¬(n + 1) % 16 = 0 := by omega
        have h3 : ¬(n + 1) % 16 = 15 := by omega
        rw [outsAt0_B m c (⟨n + 1, h⟩ : Fin cfg0.N) h0 h1 h2 h3]
        dsimp only
        constructor
        · -- the row accumulator goes on from what the point before left
          funext y
          obtain ⟨u, p, rfl⟩ : ∃ (u : Fin 1) (p : Fin 1024), y = ix2 u p := ⟨y 0, y 1, eq_ix2 y⟩
          obtain rfl : u = 0 := Subsingleton.elim _ _
          refine (congrFun (Pieces.sB0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _) (ix2 0 p)).trans ?_
          refine (row_step m c (⟨n + 1, h⟩ : Fin cfg0.N) _ p).trans ?_
          show _ = Cert.Spec.rowAcc (D m c) (n + 1) p
          rw [Cert.Spec.rowAcc, if_neg h0]
          exact congrArg (fun z => min z _) (congrFun ih.1 (ix2 0 p))
        · -- the column accumulator: the current second-set block lowered, the others kept
          funext y
          obtain ⟨u, r, rfl⟩ : ∃ (u : Fin 1) (r : Fin 4096), y = ix2 u r := ⟨y 0, y 1, eq_ix2 y⟩
          obtain rfl : u = 0 := Subsingleton.elim _ _
          have hr := r.isLt
          show _ = Cert.Spec.colAcc (D m c) (n + 1) r
          rw [Cert.Spec.colAcc]
          by_cases hb : r.val / 1024 = (n + 1) % 4
          · rw [if_pos hb]
            have hq : r.val % 1024 < 1024 := Nat.mod_lt _ (by decide)
            have er : r = Cert.Spec.blk ((n + 1) % 4) ⟨r.val % 1024, hq⟩ :=
              Fin.ext (by rw [Cert.Spec.blk_val (by omega)]; show r.val = 1024 * ((n + 1) % 4) + r.val % 1024; omega)
            refine (Pieces.sB1_in (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _ (ix2 0 r) ⟨r.val % 1024, hq⟩ rfl ?_).trans ?_
            · show r.val = 1024 * ((grid0.coords (⟨n + 1, h⟩ : Fin cfg0.N)) 1).val + r.val % 1024
              rw [(idx_facts (⟨n + 1, h⟩ : Fin cfg0.N)).2.2.2.2]
              show r.val = 1024 * ((n + 1) % 4) + r.val % 1024
              omega
            · refine (col_step m c (⟨n + 1, h⟩ : Fin cfg0.N) _ ⟨r.val % 1024, hq⟩).trans ?_
              rw [← er]
              refine congrArg (fun z => min z _) ?_
              refine (congrFun ih.2 _).trans (congrArg (Cert.Spec.colAcc (D m c) n) (Fin.ext ?_))
              show (k0_off1 (grid0.coords (⟨n + 1, h⟩ : Fin cfg0.N))) 1 + 1 * (r.val % 1024) = r.val
              rw [k0_off1_eq, (idx_facts (⟨n + 1, h⟩ : Fin cfg0.N)).2.2.2.2]
              show 1024 * ((n + 1) % 4) + 1 * (r.val % 1024) = r.val
              omega
          · rw [if_neg hb]
            refine (Pieces.sB1_out (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _ (ix2 0 r) ?_).trans (congrFun ih.2 (ix2 0 r))
            show r.val < 1024 * ((grid0.coords (⟨n + 1, h⟩ : Fin cfg0.N)) 1).val ∨ 1024 * ((grid0.coords (⟨n + 1, h⟩ : Fin cfg0.N)) 1).val + 1024 ≤ r.val
            rw [(idx_facts (⟨n + 1, h⟩ : Fin cfg0.N)).2.2.2.2]
            show r.val < 1024 * ((n + 1) % 4) ∨ 1024 * ((n + 1) % 4) + 1024 ≤ r.val
            omega

end Cert.KernelIdeal.Sweep

end
-- ==== Proof.KernelValue.lean ====
/-
  The kernel's value. After the last grid point of a first-set block the first result's block is the finished row
  accumulator — for each point of that block the least distance over the whole second set —, and after the very last
  grid point the second result is the finished column accumulator — for each point of the second set the least
  distance over the whole first set. The four blocks of the first result tile its array and the one block of the
  second is its array, so after the region the two result arrays are the specification's two nearest-distance
  vectors, laid out as 1×4096 rows. The host operations after the region sum each row, divide by 4096, add the two
  means and halve: the specification's loss.
-/
import proofs.«151360_j65524021067918_1_alg».proof.Proof.Sweep
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Sweep

variable (m : (ℓ : Loc nD τ sig) → Buf (Elt Ideal) ℓ) (ρ : Dev nD → PrngReg)

/-! ## What the results copy -/

/-- At the last second-set block of a first-set block the first result's block is the row accumulator. -/
theorem o2_eq (c : Dev nD) : ∀ (n : ℕ) (h : n < cfg0.N), n % 4 = 3 → (outsAt0 m c n h).1 = (outsAt0 m c n h).2.2.1
  | 0, _, h3 => absurd h3 (by decide)
  | n + 1, h, h1 => by
    have hN : cfg0.N = 16 := N_0
    have h0 : ¬(n + 1) % 4 = 0 := by omega
    have h2 : ¬(n + 1) % 16 = 0 := by omega
    by_cases h3 : (n + 1) % 16 = 15
    · rw [outsAt0_E m c (⟨n + 1, h⟩ : Fin cfg0.N) h0 h1 h2 h3]
      dsimp only
      exact (Pieces.oE2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _).trans
        (Pieces.sE0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _).symm
    · rw [outsAt0_C m c (⟨n + 1, h⟩ : Fin cfg0.N) h0 h1 h2 h3]
      dsimp only
      exact (Pieces.oC2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _).trans
        (Pieces.sC0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _).symm

/-- At the very last point the second result is the column accumulator. -/
theorem o3_eq (c : Dev nD) : ∀ (n : ℕ) (h : n < cfg0.N), n % 16 = 15 → (outsAt0 m c n h).2.1 = (outsAt0 m c n h).2.2.2
  | 0, _, h3 => absurd h3 (by decide)
  | n + 1, h, h3 => by
    have hN : cfg0.N = 16 := N_0
    have h0 : ¬(n + 1) % 4 = 0 := by omega
    have h1 : (n + 1) % 4 = 3 := by omega
    have h2 : ¬(n + 1) % 16 = 0 := by omega
    rw [outsAt0_E m c (⟨n + 1, h⟩ : Fin cfg0.N) h0 h1 h2 h3]
    dsimp only
    exact Pieces.oE3 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) _ _ _ _ (iblk m c 0 (⟨n + 1, h⟩ : Fin cfg0.N)) (iblk m c 1 (⟨n + 1, h⟩ : Fin cfg0.N)) _ _

/-! ## The result arrays after the region -/

/-- The first result array's final contents: entry (0, n) is the distance from point `n` of the first set to the nearest
    point of the second. -/
abbrev res2 (c : Dev nD) : S1x4096.Idx → EReal :=
  fun y => Cert.Spec.nearestOfSecond (Xs m c) (Ys m c) ⟨(y 1).val, (y 1).isLt⟩

/-- The second result array's final contents: entry (0, m) is the distance from point `m` of the second set to the nearest
    point of the first. -/
abbrev res3 (c : Dev nD) : S1x4096.Idx → EReal :=
  fun y => Cert.Spec.nearestOfFirst (Xs m c) (Ys m c) ⟨(y 1).val, (y 1).isLt⟩

/-- Where the output windows sit: the first result's block at point `t` is block `t / 4` of its row; the second result
    has one block. -/
theorem out_idx : ∀ t : Fin cfg0.N,
    win0_2.index t (0 : Fin 2) = 0 ∧ win0_2.index t (1 : Fin 2) = t.val / 4
    ∧ win0_3.index t (0 : Fin 2) = 0 ∧ win0_3.index t (1 : Fin 2) = 0 :=
  (by decide +kernel : ∀ t : Fin grid0.N, _)

/-- What a write-back of the first result writes is its block of `res2`. -/
theorem flushed2_eq (c : Dev nD) (t : Fin cfg0.N) (hf : (cfg0.win 2).flush t = true) :
    (dats m 0 c).flushed 2 t = ((cfg0.win 2).blk t).view.read (Elt Ideal) (res2 m c) := by
  have h3 : t.val % 4 = 3 := (flush0_2 t).mp hf
  have ht := t.isLt
  have hN : cfg0.N = 16 := N_0
  have e4 : t.val = 4 * (t.val / 4) + 3 := by omega
  show (cfg0.win 2).cut (grid0.coords t) ((dats m 0 c).after 2 t) = _
  rw [after0_2, o2_eq m c t.val t.isLt h3, (inv m c t.val t.isLt).1]
  funext j
  have hj : (j 1).val < 1024 := (j 1).isLt
  show Cert.Spec.rowAcc (D m c) t.val ⟨(j 1).val, hj⟩
    = Cert.Spec.nearestOfSecond (Xs m c) (Ys m c) ⟨((((cfg0.win 2).blk t).view.emb j) 1).val, ((((cfg0.win 2).blk t).view.emb j) 1).isLt⟩
  refine (congrFun (congrArg (Cert.Spec.rowAcc (D m c)) e4) _).trans ?_
  refine (Cert.Spec.rowAcc_last (D m c) (t.val / 4) (by omega) _).trans ?_
  show Cert.Spec.nearestOfSecond (Xs m c) (Ys m c) (Cert.Spec.blk (t.val / 4) ⟨(j 1).val, hj⟩) = _
  refine congrArg _ (Fin.ext ?_)
  rw [Cert.Spec.blk_val (by omega)]
  show 1024 * (t.val / 4) + (j 1).val = win0_2.index t (1 : Fin 2) * 1024 + 1 * (j 1).val
  rw [(out_idx t).2.1]; omega

/-- An index of the first result's row is in point `t`'s block iff each coordinate is in the block's range. -/
theorem mem_blk2 (t : Fin cfg0.N) (i : S1x4096.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v0_0).slice (win0_2.rect t)).set ↔ _
  rw [View.set_slice_whole, Rect.mem_set_unit]
  exact Iff.rfl

/-- After the region the first result array is `res2`: the four written blocks tile it. -/
theorem final2 (c : Dev nD) : (dats m 0 c).arrAt 2 cfg0.N = res2 m c := by
  have hN : cfg0.N = 16 := N_0
  refine (dats m 0 c).arrAt_eq_of_cover 2 (res2 m c) (flushed2_eq m c) fun i => ?_
  have hi0 : (i 0).val < 1 := (i 0).isLt
  have hi1 : (i 1).val < 4096 := (i 1).isLt
  refine ⟨⟨4 * ((i 1).val / 1024) + 3, by omega⟩, (flush0_2 _).mpr (by show (4 * ((i 1).val / 1024) + 3) % 4 = 3; omega), ?_⟩
  rw [mem_blk2]
  intro a
  match a with
  | ⟨0, _⟩ =>
    show win0_2.index ⟨4 * ((i 1).val / 1024) + 3, _⟩ (0 : Fin 2) * 1 ≤ (i 0).val ∧ (i 0).val < win0_2.index ⟨4 * ((i 1).val / 1024) + 3, _⟩ (0 : Fin 2) * 1 + 1
    rw [(out_idx _).1]; omega
  | ⟨1, _⟩ =>
    show win0_2.index ⟨4 * ((i 1).val / 1024) + 3, _⟩ (1 : Fin 2) * 1024 ≤ (i 1).val ∧ (i 1).val < win0_2.index ⟨4 * ((i 1).val / 1024) + 3, _⟩ (1 : Fin 2) * 1024 + 1024
    rw [(out_idx _).2.1]
    show (4 * ((i 1).val / 1024) + 3) / 4 * 1024 ≤ (i 1).val ∧ (i 1).val < (4 * ((i 1).val / 1024) + 3) / 4 * 1024 + 1024
    omega

/-- What the one write-back of the second result writes is `res3`. -/
theorem flushed3_eq (c : Dev nD) (t : Fin cfg0.N) (hf : (cfg0.win 3).flush t = true) :
    (dats m 0 c).flushed 3 t = ((cfg0.win 3).blk t).view.read (Elt Ideal) (res3 m c) := by
  have h15 : t.val % 16 = 15 := (flush0_3 t).mp hf
  have ht := t.isLt
  have hN : cfg0.N = 16 := N_0
  have e15 : t.val = 15 := by omega
  show (cfg0.win 3).cut (grid0.coords t) ((dats m 0 c).after 3 t) = _
  rw [after0_3, o3_eq m c t.val t.isLt h15, (inv m c t.val t.isLt).2]
  funext j
  have hj : (j 1).val < 4096 := (j 1).isLt
  show Cert.Spec.colAcc (D m c) t.val ⟨(j 1).val, hj⟩
    = Cert.Spec.nearestOfFirst (Xs m c) (Ys m c) ⟨((((cfg0.win 3).blk t).view.emb j) 1).val, ((((cfg0.win 3).blk t).view.emb j) 1).isLt⟩
  refine (congrFun (congrArg (Cert.Spec.colAcc (D m c)) e15) _).trans ?_
  refine (Cert.Spec.colAcc_last (D m c) _).trans ?_
  show Cert.Spec.nearestOfFirst (Xs m c) (Ys m c) ⟨(j 1).val, hj⟩ = _
  refine congrArg _ (Fin.ext ?_)
  show (j 1).val = win0_3.index t (1 : Fin 2) * 4096 + 1 * (j 1).val
  rw [(out_idx t).2.2.2]; omega

theorem mem_blk3 (t : Fin cfg0.N) (i : S1x4096.Idx) :
    i ∈ ((cfg0.win 3).blk t).view.set ↔ ∀ a : Fin 2, win0_3.index t a * S1x4096.size a ≤ (i a).val ∧ (i a).val < win0_3.index t a * S1x4096.size a + S1x4096.size a := by
  show i ∈ ((View.whole main_v0_1).slice (win0_3.rect t)).set ↔ _
  rw [View.set_slice_whole, Rect.mem_set_unit]
  exact Iff.rfl

/-- After the region the second result array is `res3`: its one block is the array. -/
theorem final3 (c : Dev nD) : (dats m 0 c).arrAt 3 cfg0.N = res3 m c := by
  have hN : cfg0.N = 16 := N_0
  refine (dats m 0 c).arrAt_eq_of_cover 3 (res3 m c) (flushed3_eq m c) fun i => ?_
  have hi0 : (i 0).val < 1 := (i 0).isLt
  have hi1 : (i 1).val < 4096 := (i 1).isLt
  refine ⟨⟨15, by omega⟩, (flush0_3 _).mpr (by show 15 % 16 = 15; decide), ?_⟩
  rw [mem_blk3]
  intro a
  match a with
  | ⟨0, _⟩ =>
    show win0_3.index ⟨15, _⟩ (0 : Fin 2) * 1 ≤ (i 0).val ∧ (i 0).val < win0_3.index ⟨15, _⟩ (0 : Fin 2) * 1 + 1
    rw [(out_idx _).2.2.1]; omega
  | ⟨1, _⟩ =>
    show win0_3.index ⟨15, _⟩ (1 : Fin 2) * 4096 ≤ (i 1).val ∧ (i 1).val < win0_3.index ⟨15, _⟩ (1 : Fin 2) * 4096 + 4096
    rw [(out_idx _).2.2.2]; omega

/-! ## The host operations after the region -/

/-- A sum over the entries of a 1×4096 row is the sum over its 4096 columns. -/
theorem sum_row (f : Fin 4096 → EReal) :
    ∑ i : S1x4096.Idx, f ⟨(i 1).val, (i 1).isLt⟩ = ∑ n : Fin 4096, f n := by
  rw [sum_idx2 (fun i : (⟨2, ![1, 4096]⟩ : Shape).Idx => f ⟨(i 1).val, (i 1).isLt⟩), Fin.sum_univ_one]

/-- The mean of a 1×4096 row as the host computes it — the sum from zero over both axes, divided by 4096 — is the
    specification's mean of its entries. -/
theorem mean_row (f : Fin 4096 → EReal) (j : S_.Idx) :
    Host.divf (F := Ideal) (Host.reduceAdd (F := Ideal) (fun y : S1x4096.Idx => f ⟨(y 1).val, (y 1).isLt⟩)
        (constant (F := Ideal) S_ .f32 0x00000000#32) reducesTo_S1x4096_S_d0_1 h_S_) (constant (F := Ideal) S_ .f32 0x45800000#32) j
      = Cert.Spec.mean f := by
  show Ideal.div (Ideal.hostReduceAdd reducesTo_S1x4096_S_d0_1 (fun y : S1x4096.Idx => f ⟨(y 1).val, (y 1).isLt⟩)
      (Ideal.ofBits .f32 0x00000000#32) j) (Ideal.ofBits .f32 0x45800000#32) = _
  rw [Ideal.hostReduceAdd_total reducesTo_S1x4096_S_d0_1 (fun b => b.elim0), sum_row]
  rfl

/-- The program's result after the host operations that follow the region: the loss. -/
theorem tail_eq (c : Dev nD) :
    Pipeline.afterTail₀ cfgs (dats m) 0 (V0 m) [hostOps1] c main_v6 = fun _ => Cert.Spec.loss (Xs m c) (Ys m c) := by
  have e2 : Pipeline.withArrays (cfgs 0).spec c (V0 m c) (fun w => (dats m 0 c).arrAt w (cfgs 0).N) (Proc.devRef .tc main_v0_0)
      = res2 m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = res3 m c := (Pipeline.withArrays_arr spec0 launch0.win.arr_inj c _ _ 3).trans (final3 m c)
  unfold Pipeline.afterTail₀
  show StableHlo.after hostOps1 _ (Proc.devRef .tc main_v6) = _
  after_results
  rw [e2, e3]
  funext j
  show (Host.divf (F := Ideal) (Host.reduceAdd (F := Ideal) (res2 m c) (constant (F := Ideal) S_ .f32 0x00000000#32) reducesTo_S1x4096_S_d0_1 h_S_)
          (constant (F := Ideal) S_ .f32 0x45800000#32) j
        + Host.divf (F := Ideal) (Host.reduceAdd (F := Ideal) (res3 m c) (constant (F := Ideal) S_ .f32 0x00000000#32) reducesTo_S1x4096_S_d0_1 h_S_)
          (constant (F := Ideal) S_ .f32 0x45800000#32) j) * Ideal.ofBits .f32 0x3F000000#32 = _
  rw [mean_row (Cert.Spec.nearestOfSecond (Xs m c) (Ys m c)) j, mean_row (Cert.Spec.nearestOfFirst (Xs m c) (Ys m c)) j]
  rfl

/-! ## The run, read -/

theorem v6_rest : main_v6 ∈ Pipeline.restRefs sig (cfgs 0).spec :=
  Pipeline.mem_restRefs_of main_v6 rfl (fun w => by fin_cases w <;> decide)

/-- Every weakly fair execution of the program terminates with its result at the loss of its two argument arrays,
    which end unchanged. -/
theorem run : θ_run defs (onTc (τ := τ) (main (F := Ideal))) ⟨m, fun _ => 0, ρ⟩ fun r => ∀ c : Dev nD,
      r.2.mem ((c.tc : Thread nD τ).loc main_v6) = (fun _ => Cert.Spec.loss (Xs m c) (Ys m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v6 v6_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.lean ====
/-
  The certificate of the nearest-neighbour loss kernel. Two sets of 4096 points with 1024 coordinates; the scaled squared
  distance `dist n m = (‖xₙ‖² − 2 xₙ·yₘ + ‖yₘ‖²) · 2⁻¹⁰`; the loss is the average of the two means of nearest
  distances, one per direction. The reference computes the whole 4096 × 4096 distance matrix, dividing by 1024, and
  reduces it along each axis. The kernel never forms the matrix: it sweeps 16 pairs of blocks of 1024 points, computes
  each 1024 × 1024 distance block (multiplying by 2⁻¹⁰), and folds the block's row and column minima into two running
  minima kept across the sweep; the means are taken after the sweep. Over the extended reals the two are one number:
  dividing by 1024 is multiplying by 2⁻¹⁰ on every extended real, and a minimum taken block by block from +∞ is the
  minimum over all candidates, since `c ≤ min` says `c ≤` every candidate however they are grouped. No finiteness of
  the inputs is used.

  The modules: `Spec` (the specification and the order theory of the sweep), `RefValue` (the reference's result is the
  specification), `Payload` (the kernel body's arithmetic at an index), `Pieces` (what each control case of the body
  leaves in the carried accumulators and the results), `Sweep` (the induction over the 16 grid points), `KernelValue`
  (the result arrays after the sweep, the host operations after it, the run). Here: the three frames, the idealization
  (the ideal pass rewrote nothing) and the equality of the two results.
-/
import proofs.«151360_j65524021067918_1_alg».proof.Defs
import proofs.«151360_j65524021067918_1_alg».proof.Proof.Gen.Kernel
import proofs.«151360_j65524021067918_1_alg».proof.Proof.Gen.Kernel.Skeleton
import proofs.«151360_j65524021067918_1_alg».proof.Proof.Gen.Kernel.Launch
import proofs.«151360_j65524021067918_1_alg».proof.Proof.Gen.Kernel.Points
import proofs.«151360_j65524021067918_1_alg».proof.Proof.Gen.Kernel.Frame
import proofs.«151360_j65524021067918_1_alg».proof.Proof.Gen.KernelIdeal
import proofs.«151360_j65524021067918_1_alg».proof.Proof.Gen.KernelIdeal.Skeleton
import proofs.«151360_j65524021067918_1_alg».proof.Proof.Gen.KernelIdeal.Launch
import proofs.«151360_j65524021067918_1_alg».proof.Proof.Gen.KernelIdeal.Points
import proofs.«151360_j65524021067918_1_alg».proof.Proof.Gen.KernelIdeal.Frame
import proofs.«151360_j65524021067918_1_alg».proof.Proof.Gen.ReferenceIdeal
import proofs.«151360_j65524021067918_1_alg».proof.Proof.Gen.Pre_finite_inputs
import proofs.«151360_j65524021067918_1_alg».proof.Proof.Gen.ReferenceIdeal.Run
import proofs.«151360_j65524021067918_1_alg».proof.Proof.Gen.ReferenceIdeal.Read
import proofs.«151360_j65524021067918_1_alg».proof.Proof.Spec
import proofs.«151360_j65524021067918_1_alg».proof.Proof.RefValue
import proofs.«151360_j65524021067918_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Over the extended reals the kernel's result and the reference's are both the loss of the argument arrays, which
    agree. -/
theorem algebraic : Cert.algebraic_KernelIdeal_ReferenceIdeal := by
  intro m ρ m' ρ' _ hagree
  refine ⟨fun c => fun _ => Cert.Spec.loss (Cert.KernelIdeal.Sweep.Xs m c) (Cert.KernelIdeal.Sweep.Ys m c),
    Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
